-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S80x128 : Shape := ⟨2, ![80, 128]⟩
abbrev S5000x128 : Shape := ⟨2, ![5000, 128]⟩
abbrev S5000x1 : Shape := ⟨2, ![5000, 1]⟩
abbrev S8x128 : Shape := ⟨2, ![8, 128]⟩

abbrev nBuf : Space → Nat
  | .hbm => 66
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S80x128, .f32⟩
  | .hbm, ⟨41, _⟩ => ⟨S80x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S80x128_S128_d0 : S80x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S80x128.size a
  hwx0_6 : ∀ i : grid0.Coords, EltTy.bits .f32 = 32 ∨ (Rect.block (s := S80x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S80x128.size a
  hwx0_7 : ∀ i : grid0.Coords, EltTy.bits .f32 = 32 ∨ (Rect.block (s := S80x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .i32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_cst_3 : Ref sig .tc := ⟨.hbm, 69, rfl⟩
abbrev main_call1_v12 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_7 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerRun.lean ====
/-
  The idealized kernel's run with its result named: every weakly fair execution of @main terminates without a
  fault, the result array ends at what the second region's write-backs leave (the last boundary's contents of the
  result buffer), and the argument arrays end as launched.
-/
import proofs.«134507_j47201690583087_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_value : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.HandRun

end
-- ==== Proof.Spec.lean ====
/-
  The layer both programs compute, written once over the extended reals, index by index.

  A graph layer with mean aggregation: from the aggregated neighbour sums `A` and the clamped neighbour counts,
  the hidden activations are `h = max (mean · W_lᵀ + x · W_rᵀ + b) 0` (`hid`), their column statistics over the
  50000 rows normalise them, and the result is the input plus the normalised activations scaled and shifted
  (`out`).  One program sums a column in ten tiles of 5000 rows, leaving each tile's sum in the first of eight
  rows of a partial array (`partialRow`); the other sums all rows at once.
-/
import Idealize.ShloMosaic.PureOps.Ideal
import Idealize.ShloMosaic.Lib.ValueIdx

noncomputable section

namespace Cert.Sage

open Idealize.ShloMosaic Idealize.ShloMosaic.ValueIdx

/-- A rank-two array of extended reals, row-major. -/
abbrev Arr (a b : Nat) := (⟨2, ![a, b]⟩ : Shape).Idx → EReal

/-- The hidden activation at row `i`, column `j`: the two matrix products against the transposed weights, the
    bias, and the clamp at zero. `mean` is the aggregated neighbour mean, `X` the node features. -/
def hid (mean : Fin 50000 → Fin 128 → EReal) (X : Arr 50000 128) (WlT WrT : Arr 128 128) (b : Fin 128 → EReal)
    (i : Fin 50000) (j : Fin 128) : EReal :=
  max (((∑ k : Fin 128, mean i k * WlT (ix2 k j)) + ∑ k : Fin 128, X (ix2 i k) * WrT (ix2 k j)) + b j) 0

/-- The result at row `i`, column `j`: the input plus the activation centred at `mu`, scaled by `istd` and
    `g`, shifted by `be`. -/
def out (X : Arr 50000 128) (h : Fin 50000 → Fin 128 → EReal) (mu istd g be : Fin 128 → EReal)
    (i : Fin 50000) (j : Fin 128) : EReal :=
  X (ix2 i j) + ((((h i j - mu j) * istd j) * g j) + be j)

/-- The sum of a column over tile `t`: rows `5000 t … 5000 t + 4999`. -/
def tileSum (f : Fin 50000 → EReal) (t : Fin 10) : EReal :=
  ∑ p : Fin 5000, f ⟨5000 * t.val + p.val, by omega⟩

/-- Row `r` of the 80-row array of partial sums: tile `r / 8`'s sum when `r` is the first of its eight rows,
    zero otherwise. -/
def partialRow (f : Fin 50000 → EReal) (r : Fin 80) : EReal :=
  if r.val % 8 = 0 then tileSum f ⟨r.val / 8, by omega⟩ else 0

/-- The number of rows, 50000, as the float literal both programs divide by. -/
def nrows : EReal := Ideal.ofBits .f32 0x47435000#32

/-- The variance guard both programs add before the reciprocal square root. -/
def eps : EReal := Ideal.ofBits .f32 0x3727C5AC#32

end Cert.Sage

end
-- ==== Proof.Views.lean ====
/-
  Two small readings of arrays that both regions' values are stated with: the aggregated sums scaled row by row
  by the reciprocal counts, and a one-row array read as a vector.
-/
import proofs.«134507_j47201690583087_2_alg».proof.Proof.Spec

noncomputable section

namespace Cert.Sage

open Idealize.ShloMosaic Idealize.ShloMosaic.ValueIdx

/-- Row `i` of `A` scaled by row `i`'s entry of the one-column array `ic`. -/
def scaled (A : Arr 50000 128) (ic : Arr 50000 1) (i : Fin 50000) (k : Fin 128) : EReal := A (ix2 i k) * ic (ix2 i 0)

/-- The one row of a `[1, 128]` array as a vector. -/
def row0 (v : Arr 1 128) (j : Fin 128) : EReal := v (ix2 0 j)

/-- Column `j` of an 80-row array of partial sums, summed from zero. -/
def sum80 (P : Arr 80 128) (j : Fin 128) : EReal := 0 + ∑ r : Fin 80, P (ix2 r j)

end Cert.Sage

end
-- ==== Proof.NormPayload.lean ====
/-
  One tile of the normalisation step, read at a row and a column.

  A grid point holds 5000 rows of the aggregate, of the inverse counts and of the features, the two 128 × 128
  weight matrices, and five rows of 128 (bias, mean, inverse deviation, scale, offset). What it stores at row `p`,
  column `j` is the features there plus the normalised hidden activation: the hidden activation is the clamp at
  zero of (aggregate × inverse count) · W_lᵀ + features · W_rᵀ + bias; each matrix product at (p, j) is the sum
  over the 128 contracted coordinates; a row of 128 broadcast down the rows reads its one row, a column broadcast
  across reads its one column.
-/
import proofs.«134507_j47201690583087_2_alg».proof.Proof.Gen.KernelIdeal.Skeleton
import proofs.«134507_j47201690583087_2_alg».proof.Proof.Spec
import Idealize.ShloMosaic.Lib.ValueLayout
import Idealize.ShloMosaic.PureOps.Ideal.Laws

noncomputable section

namespace Cert.KernelIdeal.NormValue

open Idealize.ShloMosaic Idealize.ShloMosaic.ValueIdx Cert.KernelIdeal Cert.KernelIdeal.Gen

/-- A column `[a, 1]` broadcast along the rows' second axis to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dimension numbers of the two matrix products: rows of the left operand against columns of the right. -/
abbrev mmDims : DotDims S5000x128 S128x128 S5000x128 := dot_S5000x128_S128x128_S5000x128_1_0_0_1_n_n

theorem mm_lhs_0 (i : S5000x128.Idx) (q : mmDims.contr.Idx) : (mmDims.lhsIdx i q 0).val = (i 0).val := by
  unfold DotDims.lhsIdx
  rw [dif_neg (show ¬(0 : Fin S5000x128.rank) ∈ mmDims.lhsBatch by decide), dif_pos (show (0 : Fin S5000x128.rank) ∈ mmDims.lhsNonContracting by decide)]
  rfl
theorem mm_lhs_1 (i : S5000x128.Idx) (q : mmDims.contr.Idx) : (mmDims.lhsIdx i q 1).val = (q ⟨0, by decide⟩).val :=
  mmDims.lhsIdx_val_of_single rfl i q
theorem mm_rhs_0 (i : S5000x128.Idx) (q : mmDims.contr.Idx) : (mmDims.rhsIdx i q 0).val = (q ⟨0, by decide⟩).val :=
  mmDims.rhsIdx_val_of_single rfl i q
theorem mm_rhs_1 (i : S5000x128.Idx) (q : mmDims.contr.Idx) : (mmDims.rhsIdx i q 1).val = (i 1).val := by
  unfold DotDims.rhsIdx
  rw [dif_neg (show ¬(1 : Fin S128x128.rank) ∈ mmDims.rhsBatch by decide), dif_pos (show (1 : Fin S128x128.rank) ∈ mmDims.rhsNonContracting by decide)]
  rfl

/-- A matrix product into the zero accumulator, read at row `p`, column `j`: the sum over the contracted axis. -/
theorem matmul_ix2 (A : FVec Ideal S5000x128 .bf16) (B : FVec Ideal S128x128 .bf16) (p : Fin 5000) (j : Fin 128) :
    matmul dot_S5000x128_S128x128_S5000x128_1_0_0_1_n_n none A B (constant (F := Ideal) S5000x128 .f32 0x00000000#32) (ix2 p j)
      = ∑ k : Fin 128, A (ix2 p k) * B (ix2 k j) := by
  simp only [matmul]
  rw [Ideal.matmul_constant_zero_apply, ← Equiv.sum_comp (contrEquiv1 mmDims 128 rfl rfl).symm]
  refine Finset.sum_congr rfl fun k _ => ?_
  have hk := contrEquiv1_symm_val mmDims 128 rfl rfl k
  have el : mmDims.lhsIdx (ix2 p j) ((contrEquiv1 mmDims 128 rfl rfl).symm k) = ix2 p k := funext fun a => Fin.ext (by
    match a with
    | ⟨0, _⟩ => exact mm_lhs_0 _ _
    | ⟨1, _⟩ => exact (mm_lhs_1 _ _).trans hk)
  have er : mmDims.rhsIdx (ix2 p j) ((contrEquiv1 mmDims 128 rfl rfl).symm k) = ix2 k j := funext fun a => Fin.ext (by
    match a with
    | ⟨0, _⟩ => exact (mm_rhs_0 _ _).trans hk
    | ⟨1, _⟩ => exact mm_rhs_1 _ _)
  rw [el, er]

/-- The scaled, centred hidden activations of one tile at row `p`, column `j`: the two matrix products of the
    tile's rows (the aggregate scaled by the inverse count, and the features) with the weights, the bias, the clamp
    at zero, then minus the mean, times the inverse deviation, times the scale. Rounding to the narrower format is the
    identity on extended reals. -/
theorem hidden_tile_apply (x0 : Vec Ideal S5000x128 .f32) (x1 : Vec Ideal S5000x1 .f32) (x2 : Vec Ideal S5000x128 .f32)
    (x3 x4 : Vec Ideal S128x128 .f32) (x5 x6 x7 x8 : Vec Ideal S1x128 .f32) (p : Fin 5000) (j : Fin 128) :
    k1_pay2 (F := Ideal) x0 x1 x2 x3 x4 x5 x6 x7 x8 (ix2 p j)
      = ((max (((∑ k : Fin 128, (x0 (ix2 p k) * x1 (ix2 p (0 : Fin 1))) * x3 (ix2 k j))
                + ∑ k : Fin 128, x2 (ix2 p k) * x4 (ix2 k j)) + x5 (ix2 (0 : Fin 1) j)) 0
            - x6 (ix2 (0 : Fin 1) j)) * x7 (ix2 (0 : Fin 1) j)) * x8 (ix2 (0 : Fin 1) j) := by
  unfold k1_pay2
  simp only [shapeCast_self]
  rw [mulf_apply, mulf_apply, subf_apply, maximumf_apply, addf_apply, addf_apply, broadcast_apply,
    matmul_ix2, matmul_ix2, broadcastTo_1b_ab_apply, broadcastTo_1b_ab_apply, broadcastTo_1b_ab_apply,
    broadcastTo_1b_ab_apply]
  simp only [truncf_apply, mulf_apply, broadcastTo_a1_ab_apply]
  rw [show (FloatOps.ofBits FTy.f32 0x00000000#32 : Ideal .f32) = 0 from Ideal.ofBits_zero_f32]

/-- What one grid point stores at row `p`, column `j` of its tile: the features plus the normalised activations
    shifted by the offset. -/
theorem norm_tile_apply (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (p : Fin 5000) (j : Fin 128) :
    k1_pay1 (F := Ideal) (k1_pay2 x0 x1 x2 x3 x4 x5 x6 x7 x8) x9 x2 (ix2 p j)
      = x2 (ix2 p j) + ((((max (((∑ k : Fin 128, (x0 (ix2 p k) * x1 (ix2 p (0 : Fin 1))) * x3 (ix2 k j))
                + ∑ k : Fin 128, x2 (ix2 p k) * x4 (ix2 k j)) + x5 (ix2 (0 : Fin 1) j)) 0
            - x6 (ix2 (0 : Fin 1) j)) * x7 (ix2 (0 : Fin 1) j)) * x8 (ix2 (0 : Fin 1) j)) + x9 (ix2 (0 : Fin 1) j)) := by
  unfold k1_pay1
  simp only [shapeCast_self]
  rw [addf_apply, addf_apply, broadcastTo_1b_ab_apply, hidden_tile_apply]

end Cert.KernelIdeal.NormValue
end
-- ==== Proof.NormValue.lean ====
/-
  The array the normalisation step leaves, for whatever the ten arrays hold when the step is entered.

  The step runs over ten grid points; point `t` holds rows `5000 t … 5000 t + 4999` of the aggregate, of the
  inverse counts and of the features, and the whole of the two weight matrices and of the five rows of 128, and
  writes rows `5000 t … 5000 t + 4999` of the result. Each block read at an index is the array at the
  corresponding index; so what point `t` writes back is tile `t` of ONE function of the ten arrays (the
  features plus the normalised hidden activation), and since row `r` lies in tile `r / 5000` the ten tiles
  cover the array, which therefore ends holding that function.
-/
import proofs.«134507_j47201690583087_2_alg».proof.Proof.Gen.KernelIdeal.Frame
import proofs.«134507_j47201690583087_2_alg».proof.Proof.Spec
import proofs.«134507_j47201690583087_2_alg».proof.Proof.Views
import proofs.«134507_j47201690583087_2_alg».proof.Proof.NormPayload
import Idealize.ShloMosaic.Lib.Pipeline.Value

noncomputable section

namespace Cert.KernelIdeal.NormValue

open Cert.KernelIdeal Cert.KernelIdeal.Gen Idealize.ShloMosaic Idealize.ShloMosaic.TcCoe Idealize.SL.Sem
open Idealize.ShloMosaic.ValueIdx
open Idealize.ShloMosaic.Pipeline (Dat)

/-- The normalised layer as one array: at row `i`, column `j` the features plus the normalised hidden activation,
    from the aggregate `A`, the inverse counts `cnt` (one column), the features `X`, the two transposed weight
    matrices and the five rows of 128 (bias, mean, inverse deviation, scale, offset). -/
def normArr (A : Cert.Sage.Arr 50000 128) (cnt : Cert.Sage.Arr 50000 1) (X : Cert.Sage.Arr 50000 128)
    (WlT WrT : Cert.Sage.Arr 128 128) (b mu istd g be : Cert.Sage.Arr 1 128) : Cert.Sage.Arr 50000 128 :=
  fun y => Cert.Sage.out X (Cert.Sage.hid (Cert.Sage.scaled A cnt) X WlT WrT (Cert.Sage.row0 b))
    (Cert.Sage.row0 mu) (Cert.Sage.row0 istd) (Cert.Sage.row0 g) (Cert.Sage.row0 be) (y 0) (y 1)

variable (V : (c : Dev nD) → (b : Ref sig .tc) → Buf (Elt Ideal) ((c : Thread nD τ).loc b))

/-- That array of the ten arrays the step finds on entry. -/
abbrev normOf (c : Dev nD) : Cert.Sage.Arr 50000 128 :=
  normArr (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))
    (V c (Pipeline.arrRef spec1 9))

theorem hz : (![0, 0] : Fin 2 → Nat) = fun _ => 0 := funext fun a => by fin_cases a <;> rfl

/-- A grid point is below ten. -/
theorem point_lt (t : Fin cfg1.N) : t.val < 10 := Nat.lt_of_lt_of_eq t.isLt N_1

/-- Row `p` of tile `t` is row `5000 t + p` of the array. -/
def tileRow (t : Fin cfg1.N) (p : Fin 5000) : Fin 50000 := ⟨5000 * t.val + p.val, by have := point_lt t; omega⟩

/-- The printed index maps, decided once over the ten grid points: the three tiled inputs and the output move
    with the grid point along the rows; every other window stays at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0) :=
  (by decide +kernel : ∀ t : Fin grid1.N, _)

/-! ## Each input block read at an index: rows `5000 t …` of a tiled array, the whole of the others -/

/-- The aggregate's tile. -/
theorem agg_tile (c : Dev nD) (t : Fin cfg1.N) (p : Fin 5000) (k : Fin 128) :
    iblk1 V c 0 t (ix2 p k) = V c (Pipeline.arrRef spec1 0) (ix2 (tileRow t p) k) := by
  obtain ⟨⟨e0, e1⟩, -⟩ := idx_facts t
  unfold iblk1
  rw [View.read_apply]
  refine congrArg (V c (Pipeline.arrRef spec1 0)) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The inverse counts' tile (one column). -/
theorem cnt_tile (c : Dev nD) (t : Fin cfg1.N) (p : Fin 5000) (u : Fin 1) :
    iblk1 V c 1 t (ix2 p u) = V c (Pipeline.arrRef spec1 1) (ix2 (tileRow t p) u) := by
  obtain ⟨-, ⟨e0, e1⟩, -⟩ := idx_facts t
  unfold iblk1
  rw [View.read_apply]
  refine congrArg (V c (Pipeline.arrRef spec1 1)) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * u.val = u.val; rw [e1]; omega

/-- The features' tile. -/
theorem feat_tile (c : Dev nD) (t : Fin cfg1.N) (p : Fin 5000) (k : Fin 128) :
    iblk1 V c 2 t (ix2 p k) = V c (Pipeline.arrRef spec1 2) (ix2 (tileRow t p) k) := by
  obtain ⟨-, -, ⟨e0, e1⟩, -⟩ := idx_facts t
  unfold iblk1
  rw [View.read_apply]
  refine congrArg (V c (Pipeline.arrRef spec1 2)) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 128 + 1 * k.val = k.val; rw [e1]; omega

/-- The first weight matrix, whole at every point. -/
theorem wl_whole (c : Dev nD) (t : Fin cfg1.N) (k j : Fin 128) :
    iblk1 V c 3 t (ix2 k j) = V c (Pipeline.arrRef spec1 3) (ix2 k j) := by
  obtain ⟨-, -, -, ⟨e0, e1⟩, -⟩ := idx_facts t
  unfold iblk1
  rw [View.read_apply]
  refine congrArg (V c (Pipeline.arrRef spec1 3)) (funext fun a => Fin.ext ?_)
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The second weight matrix, whole at every point. -/
theorem wr_whole (c : Dev nD) (t : Fin cfg1.N) (k j : Fin 128) :
    iblk1 V c 4 t (ix2 k j) = V c (Pipeline.arrRef spec1 4) (ix2 k j) := by
  obtain ⟨-, -, -, -, ⟨e0, e1⟩, -⟩ := idx_facts t
  unfold iblk1
  rw [View.read_apply]
  refine congrArg (V c (Pipeline.arrRef spec1 4)) (funext fun a => Fin.ext ?_)
  match a with
  | ⟨0, _⟩ => show win1_4.index t (0 : Fin 2) * 128 + 1 * k.val = k.val; rw [e0]; omega
  | ⟨1, _⟩ => show win1_4.index t (1 : Fin 2) * 128 + 1 * j.val = j.val; rw [e1]; omega

/-- The bias row, whole at every point. -/
theorem bias_whole (c : Dev nD) (t : Fin cfg1.N) (u : Fin 1) (j : Fin 128) :
    iblk1 V c 5 t (ix2 u j) = V c (Pipeline.arrRef spec1 5) (ix2 u j) := by
  obtain ⟨-, -, -, -, -, ⟨e0, e1⟩, -⟩ := idx_facts t
  unfold iblk1
  rw [View.read_apply]
  refine congrArg (V c (Pipeline.arrRef spec1 5)) (funext fun a => Fin.ext ?_)
  match a with
  | ⟨0, _⟩ => show win1_5.index t (0 : Fin 2) * 1 + 1 * u.val = u.val; rw [e0]; omega
  | ⟨1, _⟩ => show win1_5.index t (1 : Fin 2) * 128 + 1 * j.val = j.val; rw [e1]; omega

/-- The row of column means, whole at every point. -/
theorem mean_whole (c : Dev nD) (t : Fin cfg1.N) (u : Fin 1) (j : Fin 128) :
    iblk1 V c 6 t (ix2 u j) = V c (Pipeline.arrRef spec1 6) (ix2 u j) := by
  obtain ⟨-, -, -, -, -, -, ⟨e0, e1⟩, -⟩ := idx_facts t
  unfold iblk1
  rw [View.read_apply]
  refine congrArg (V c (Pipeline.arrRef spec1 6)) (funext fun a => Fin.ext ?_)
  match a with
  | ⟨0, _⟩ => show win1_6.index t (0 : Fin 2) * 1 + 1 * u.val = u.val; rw [e0]; omega
  | ⟨1, _⟩ => show win1_6.index t (1 : Fin 2) * 128 + 1 * j.val = j.val; rw [e1]; omega

/-- The row of inverse deviations, whole at every point. -/
theorem istd_whole (c : Dev nD) (t : Fin cfg1.N) (u : Fin 1) (j : Fin 128) :
    iblk1 V c 7 t (ix2 u j) = V c (Pipeline.arrRef spec1 7) (ix2 u j) := by
  obtain ⟨-, -, -, -, -, -, -, ⟨e0, e1⟩, -⟩ := idx_facts t
  unfold iblk1
  rw [View.read_apply]
  refine congrArg (V c (Pipeline.arrRef spec1 7)) (funext fun a => Fin.ext ?_)
  match a with
  | ⟨0, _⟩ => show win1_7.index t (0 : Fin 2) * 1 + 1 * u.val = u.val; rw [e0]; omega
  | ⟨1, _⟩ => show win1_7.index t (1 : Fin 2) * 128 + 1 * j.val = j.val; rw [e1]; omega

/-- The scale row, whole at every point. -/
theorem scale_whole (c : Dev nD) (t : Fin cfg1.N) (u : Fin 1) (j : Fin 128) :
    iblk1 V c 8 t (ix2 u j) = V c (Pipeline.arrRef spec1 8) (ix2 u j) := by
  obtain ⟨-, -, -, -, -, -, -, -, ⟨e0, e1⟩, -⟩ := idx_facts t
  unfold iblk1
  rw [View.read_apply]
  refine congrArg (V c (Pipeline.arrRef spec1 8)) (funext fun a => Fin.ext ?_)
  match a with
  | ⟨0, _⟩ => show win1_8.index t (0 : Fin 2) * 1 + 1 * u.val = u.val; rw [e0]; omega
  | ⟨1, _⟩ => show win1_8.index t (1 : Fin 2) * 128 + 1 * j.val = j.val; rw [e1]; omega

/-- The offset row, whole at every point. -/
theorem shift_whole (c : Dev nD) (t : Fin cfg1.N) (u : Fin 1) (j : Fin 128) :
    iblk1 V c 9 t (ix2 u j) = V c (Pipeline.arrRef spec1 9) (ix2 u j) := by
  obtain ⟨-, -, -, -, -, -, -, -, -, ⟨e0, e1⟩, -⟩ := idx_facts t
  unfold iblk1
  rw [View.read_apply]
  refine congrArg (V c (Pipeline.arrRef spec1 9)) (funext fun a => Fin.ext ?_)
  match a with
  | ⟨0, _⟩ => show win1_9.index t (0 : Fin 2) * 1 + 1 * u.val = u.val; rw [e0]; omega
  | ⟨1, _⟩ => show win1_9.index t (1 : Fin 2) * 128 + 1 * j.val = j.val; rw [e1]; omega

/-! ## What a grid point writes back, and the array after the ten points -/

/-- Where row `p`, column `j` of the output's tile `t` sits in the array: row `5000 t + p`, column `j`. -/
theorem out_tile_emb (t : Fin cfg1.N) (p : Fin 5000) (j : Fin 128) :
    ((cfg1.win 10).blk t).view.emb (ix2 p j) = ix2 (tileRow t p) j := by
  obtain ⟨-, -, -, -, -, -, -, -, -, -, ⟨e0, e1⟩⟩ := idx_facts t
  refine funext fun a => Fin.ext ?_
  match a with
  | ⟨0, _⟩ => show win1_10.index t (0 : Fin 2) * 5000 + 1 * p.val = 5000 * t.val + p.val; rw [e0]; omega
  | ⟨1, _⟩ => show win1_10.index t (1 : Fin 2) * 128 + 1 * j.val = j.val; rw [e1]; omega

/-- WHAT POINT `t` WRITES BACK is tile `t` of the normalised layer of the arrays found on entry. -/
theorem flushed_eq (c : Dev nD) (t : Fin cfg1.N) :
    (dat1 (F := Ideal) V c).flushed 10 t = ((cfg1.win 10).blk t).view.read (Elt Ideal) (normOf V c) := by
  show (cfg1.win 10).cut (grid1.coords t) ((dat1 V c).after 10 t) = _
  rw [after1_10]
  unfold out1_10
  rw [View.canon_unit_zero hz]
  simp only [View.ld_unit_zero (S := S5000x128) hz, View.ld_unit_zero (S := S5000x1) hz, View.ld_unit_zero (S := S128x128) hz, View.ld_unit_zero (S := S1x128) hz]
  funext y
  obtain ⟨p, j, rfl⟩ : ∃ (p : Fin 5000) (j : Fin 128), y = ix2 p j := ⟨y 0, y 1, eq_ix2 (n0 := 5000) (n1 := 128) y⟩
  show k1_pay1 (F := Ideal) (k1_pay2 (iblk1 V c 0 t) (iblk1 V c 1 t) (iblk1 V c 2 t) (iblk1 V c 3 t) (iblk1 V c 4 t) (iblk1 V c 5 t)
      (iblk1 V c 6 t) (iblk1 V c 7 t) (iblk1 V c 8 t)) (iblk1 V c 9 t) (iblk1 V c 2 t) (ix2 p j)
    = normOf V c (((cfg1.win 10).blk t).view.emb (ix2 p j))
  rw [out_tile_emb]
  refine (norm_tile_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) p j).trans ?_
  simp only [agg_tile V c t, cnt_tile V c t, feat_tile V c t, wl_whole V c t, wr_whole V c t, bias_whole V c t,
    mean_whole V c t, istd_whole V c t, scale_whole V c t, shift_whole V c t]
  rfl

/-- An index of the array is in point `t`'s tile iff each coordinate is in the tile's range on its axis. -/
theorem mem_tile (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v44).slice (win1_10.rect t)).set ↔ _
  rw [View.set_slice_whole, Rect.mem_set_unit]
  exact Iff.rfl

/-- Every row lies in a tile: row `r` in tile `r / 5000`. -/
theorem covered (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have ht : (i 0).val / 5000 < cfg1.N := Nat.lt_of_lt_of_eq (by omega : (i 0).val / 5000 < 10) N_1.symm
  obtain ⟨-, -, -, -, -, -, -, -, -, -, ⟨e0, e1⟩⟩ := idx_facts ⟨(i 0).val / 5000, ht⟩
  have q0 : win1_10.index ⟨(i 0).val / 5000, ht⟩ (0 : Fin 2) = (i 0).val / 5000 := e0
  refine ⟨⟨(i 0).val / 5000, ht⟩, flush1_10 _, ?_⟩
  rw [mem_tile]
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    rw [q0]; omega
  | ⟨1, _⟩ =>
    show win1_10.index ⟨(i 0).val / 5000, ht⟩ (1 : Fin 2) * 128 ≤ (i 1).val ∧ (i 1).val < win1_10.index ⟨(i 0).val / 5000, ht⟩ (1 : Fin 2) * 128 + 128
    rw [e1]; omega

/-- THE ARRAY after the ten points is the normalised layer of the arrays found on entry. -/
theorem arr_eq (c : Dev nD) : (dat1 (F := Ideal) V c).arrAt 10 cfg1.N = normOf V c :=
  (dat1 (F := Ideal) V c).arrAt_eq_of_cover 10 (normOf V c) (fun t _ => flushed_eq V c t) covered

/-- The same, entry by entry, over the layer's two functions. -/
theorem arr_out (c : Dev nD) (i : Fin 50000) (j : Fin 128) :
    (dat1 (F := Ideal) V c).arrAt 10 cfg1.N (ix2 i j)
      = Cert.Sage.out (V c (Pipeline.arrRef spec1 2))
          (Cert.Sage.hid (Cert.Sage.scaled (V c (Pipeline.arrRef spec1 0)) (V c (Pipeline.arrRef spec1 1)))
            (V c (Pipeline.arrRef spec1 2)) (V c (Pipeline.arrRef spec1 3)) (V c (Pipeline.arrRef spec1 4))
            (Cert.Sage.row0 (V c (Pipeline.arrRef spec1 5))))
          (Cert.Sage.row0 (V c (Pipeline.arrRef spec1 6))) (Cert.Sage.row0 (V c (Pipeline.arrRef spec1 7)))
          (Cert.Sage.row0 (V c (Pipeline.arrRef spec1 8))) (Cert.Sage.row0 (V c (Pipeline.arrRef spec1 9))) i j :=
  congrFun (arr_eq V c) (ix2 i j)

end Cert.KernelIdeal.NormValue
end
-- ==== Proof.StatsPayload.lean ====
/-
  The statistics pass, one tile at a time, read at an index over the extended reals.

  A tile is 5000 rows of the aggregated neighbour sums, the reciprocal neighbour counts and the node features, with
  the two transposed weight matrices and the bias.  Its hidden activation at row `p`, column `j` is
  `max (∑ₖ (agg p k · cnt p) · Wl k j + ∑ₖ x p k · Wr k j + b j) 0` (`pay2_apply`).  The two blocks the pass leaves
  are eight rows by 128 columns: row 0 holds the tile's column sums of the activations (`pay5_apply`), respectively of
  their squares (`pay1_apply`), and rows 1 to 7 hold zero.
-/
import proofs.«134507_j47201690583087_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StatsValue

open Idealize.ShloMosaic Idealize.ShloMosaic.ValueIdx

/-- The dimension numbers of the two products: rows by the contraction, contraction by columns. -/
abbrev dotRC : DotDims S5000x128 S128x128 S5000x128 := dot_S5000x128_S128x128_S5000x128_1_0_0_1_n_n

/-! ## The two products at an index -/

theorem lhs_row (i : S5000x128.Idx) (q : dotRC.contr.Idx) : (dotRC.lhsIdx i q 0).val = (i 0).val := by
  unfold DotDims.lhsIdx
  rw [dif_neg (show ¬(0 : Fin S5000x128.rank) ∈ dotRC.lhsBatch by decide),
    dif_pos (show (0 : Fin S5000x128.rank) ∈ dotRC.lhsNonContracting by decide)]
  rfl
theorem lhs_col (i : S5000x128.Idx) (q : dotRC.contr.Idx) : (dotRC.lhsIdx i q 1).val = (q ⟨0, by decide⟩).val :=
  dotRC.lhsIdx_val_of_single rfl i q
theorem rhs_row (i : S5000x128.Idx) (q : dotRC.contr.Idx) : (dotRC.rhsIdx i q 0).val = (q ⟨0, by decide⟩).val :=
  dotRC.rhsIdx_val_of_single rfl i q
theorem rhs_col (i : S5000x128.Idx) (q : dotRC.contr.Idx) : (dotRC.rhsIdx i q 1).val = (i 1).val := by
  unfold DotDims.rhsIdx
  rw [dif_neg (show ¬(1 : Fin S128x128.rank) ∈ dotRC.rhsBatch by decide),
    dif_pos (show (1 : Fin S128x128.rank) ∈ dotRC.rhsNonContracting by decide)]
  rfl

/-- A product of a tile by a square matrix into the zero accumulator, at row `p` and column `j`: the sum over the
    contracted coordinate of row `p` of the tile against column `j` of the matrix. -/
theorem matmul_at {φ₁ φ₂ : FTy} (A : FVec Ideal S5000x128 φ₁) (B : FVec Ideal S128x128 φ₂) (p : Fin 5000) (j : Fin 128) :
    matmul dotRC none A B (constant (F := Ideal) S5000x128 .f32 0x00000000#32) (ix2 p j)
      = ∑ k : Fin 128, A (ix2 p k) * B (ix2 k j) := by
  simp only [matmul]
  rw [Ideal.matmul_constant_zero_apply, ← Equiv.sum_comp (contrEquiv1 dotRC 128 rfl rfl).symm]
  refine Finset.sum_congr rfl fun k _ => ?_
  have hk := contrEquiv1_symm_val dotRC 128 rfl rfl k
  have el : dotRC.lhsIdx (ix2 p j) ((contrEquiv1 dotRC 128 rfl rfl).symm k) = ix2 p k := funext fun a => Fin.ext (by
    match a with
    | ⟨0, _⟩ => exact lhs_row _ _
    | ⟨1, _⟩ => exact (lhs_col _ _).trans hk)
  have er : dotRC.rhsIdx (ix2 p j) ((contrEquiv1 dotRC 128 rfl rfl).symm k) = ix2 k j := funext fun a => Fin.ext (by
    match a with
    | ⟨0, _⟩ => exact (rhs_row _ _).trans hk
    | ⟨1, _⟩ => exact rhs_col _ _)
  rw [el, er]

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The activation tile at an index -/

/-- The hidden activation of a tile at row `p`, column `j`: the mean-aggregated row against the first weight matrix,
    the feature row against the second, the bias, clamped at zero. -/
theorem pay2_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (j : Fin 128) :
    Gen.k0_pay2 (F := Ideal) x0 x1 x2 x3 x4 x5 (ix2 p j)
      = max (((∑ k : Fin 128, (x0 (ix2 p k) * x1 (ix2 p (0 : Fin 1))) * x3 (ix2 k j))
          + ∑ k : Fin 128, x2 (ix2 p k) * x4 (ix2 k j)) + x5 (ix2 (0 : Fin 1) j)) 0 := by
  unfold Gen.k0_pay2
  simp only [shapeCast_self]
  rw [maximumf_apply, addf_apply, addf_apply, matmul_at, matmul_at, broadcast_apply]
  refine congrArg₂ max ?_ Ideal.ofBits_zero_f32
  simp only [truncf_apply, mulf_apply, broadcastTo_a1_ab_apply, broadcastTo_1b_ab_apply]

/-! ## The column sums of a tile, kept in the first of eight rows -/

/-- A select on "row `q` of eight is row 0" is the `if` on `q`. -/
theorem select_row0 {α : Type} (q : Fin 8) (A B : α) :
    Scalar.select (IntOp.cmpi .eq (BitVec.ofNat 32 q.val) 0#32) A B = if q.val = 0 then A else B := by
  obtain ⟨h, hh⟩ := q
  interval_cases h <;> rfl

/-- The row mask at `(q, j)`: the row number compared with zero. -/
theorem pay4_apply (q : Fin 8) (j : Fin 128) :
    Gen.k0_pay4 (ix2 q j) = IntOp.cmpi .eq (BitVec.ofNat 32 q.val) 0#32 := by
  unfold Gen.k0_pay4
  show IntOp.cmpi .eq (iota .tc S8x128 32 [0] Gen.iota_S8x128_d0_w32 (ix2 q j)) 0#32 = _
  rw [iota_single_apply]

/-- The sum over a tile's 5000 rows, at column `j`. -/
theorem colsum_apply (src : FVec Ideal S5000x128 .f32) (hφ : FKind.Formats .f32)
    (hacc : (0x00000000#32 : BitVec 32) = 0x00000000#32) (j : Fin 128) :
    multiReduction (F := Ideal) .add [0] S128 src 0x00000000#32 Gen.reduces_S5000x128_S128 hφ hacc (ix1 j)
      = ∑ p : Fin 5000, src (ix2 p j) := by
  refine (Ideal.multiReduction_add_single src 0x00000000#32 Gen.reduces_S5000x128_S128 hφ hacc (ix1 j)).trans ?_
  refine Finset.sum_congr rfl fun p _ => congrArg src ?_
  funext a
  match a with
  | ⟨0, _⟩ => rfl
  | ⟨1, _⟩ => rfl

/-- A column sum, cast to one row, broadcast over eight rows and kept in row 0 only. -/
theorem kept_row0_apply (src : FVec Ideal S5000x128 .f32) (hφ : FKind.Formats .f32)
    (hacc : (0x00000000#32 : BitVec 32) = 0x00000000#32) (q : Fin 8) (j : Fin 128) :
    select Gen.k0_pay4
        (broadcastTo S8x128 (shapeCast S1x128 (shapeCast S1x128
          (multiReduction (F := Ideal) .add [0] S128 src 0x00000000#32 Gen.reduces_S5000x128_S128 hφ hacc)
          Gen.shapeCasts_S128_S1x128) Gen.shapeCasts_S1x128_S1x128) Gen.broadcasts_S1x128_S8x128)
        (broadcast S8x128 (Scalar.ofBits (F := Ideal) .f32 0x00000000#32)) (ix2 q j)
      = if q.val = 0 then ∑ p : Fin 5000, src (ix2 p j) else 0 := by
  rw [select_apply, pay4_apply, select_row0, broadcast_apply, shapeCast_self, broadcastTo_1b_ab_apply,
    shapeCast_a_1a_apply, colsum_apply]
  exact if_congr Iff.rfl rfl Ideal.ofBits_zero_f32

/-- The first partial array's block: the tile's column sums of the activations, in row 0. -/
theorem pay5_apply (x0 : Vec Ideal S5000x128 .f32) (x1 : Vec Ideal S5000x1 .f32) (x2 : Vec Ideal S5000x128 .f32)
    (x3 x4 : Vec Ideal S128x128 .f32) (x5 : Vec Ideal S1x128 .f32) (q : Fin 8) (j : Fin 128) :
    Gen.k0_pay5 (F := Ideal) x0 x1 x2 x3 x4 x5 (ix2 q j)
      = if q.val = 0 then ∑ p : Fin 5000, Gen.k0_pay2 (F := Ideal) x0 x1 x2 x3 x4 x5 (ix2 p j) else 0 := by
  unfold Gen.k0_pay5
  exact kept_row0_apply _ _ _ q j

/-- The second partial array's block: the tile's column sums of the squared activations, in row 0. -/
theorem pay1_apply (x0 : Vec Ideal S5000x128 .f32) (x1 : Vec Ideal S5000x1 .f32) (x2 : Vec Ideal S5000x128 .f32)
    (x3 x4 : Vec Ideal S128x128 .f32) (x5 : Vec Ideal S1x128 .f32) (q : Fin 8) (j : Fin 128) :
    Gen.k0_pay1 (F := Ideal) (Gen.k0_pay3 (F := Ideal) x0 x1 x2 x3 x4 x5) Gen.k0_pay4 (ix2 q j)
      = if q.val = 0 then ∑ p : Fin 5000, Gen.k0_pay2 (F := Ideal) x0 x1 x2 x3 x4 x5 (ix2 p j)
          * Gen.k0_pay2 (F := Ideal) x0 x1 x2 x3 x4 x5 (ix2 p j) else 0 := by
  unfold Gen.k0_pay1 Gen.k0_pay3
  exact kept_row0_apply _ _ _ q j

end Cert.KernelIdeal.StatsValue

end
-- ==== Proof.StatsValue.lean ====
/-
  The statistics pass on the whole arrays: what its two partial arrays hold when it ends, for any contents it starts
  from.

  The pass visits ten tiles of 5000 rows.  At tile `t` it reads rows `5000 t … 5000 t + 4999` of the aggregated sums,
  the reciprocal counts and the features, and the weights and bias whole; so row `p` of the tile's activations is row
  `5000 t + p` of the array's (`tile_act`).  It writes an 8-row block to rows `8 t … 8 t + 7` of each 80-row partial
  array, the tile's column sums in the block's first row and zero below (`flushed_sum`, `flushed_sumsq`); the ten
  blocks cover the 80 rows, so row `r`, column `j` ends at the partial row of column `j` of the activations,
  respectively of their squares (`arr_sum`, `arr_sumsq`).
-/
import proofs.«134507_j47201690583087_2_alg».proof.Proof.Gen.KernelIdeal.Frame
import proofs.«134507_j47201690583087_2_alg».proof.Proof.Views
import proofs.«134507_j47201690583087_2_alg».proof.Proof.StatsPayload
import Idealize.ShloMosaic.Lib.Pipeline.Value

noncomputable section

namespace Cert.KernelIdeal.StatsValue

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, and each window's block as rows of its array -/

/-- The index maps over the grid: a tiled window's block at point `t` is block `t` along the rows, a whole window's
    is the one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Tile `t` of the aggregated sums is rows `5000 t … 5000 t + 4999` of the array. -/
theorem blk0_read (c : Dev nD) (t : Fin cfg0.N) (p : Fin 5000) (h : 5000 * t.val + p.val < 50000) (k : Fin 128) :
    (Gen.iblk0 V c 0 t : Vec Ideal S5000x128 .f32) (ix2 p k)
      = (V c (Pipeline.arrRef spec0 0) : S50000x128.Idx → EReal) (ix2 ⟨5000 * t.val + p.val, h⟩ k) := by
  obtain ⟨e0, e1, -⟩ := idx_facts t
  unfold Gen.iblk0
  rw [View.read_apply]
  show (V c (Pipeline.arrRef spec0 0) : S50000x128.Idx → EReal) (((cfg0.win 0).blk t).view.emb (ix2 p k)) = _
  refine congrArg (V c (Pipeline.arrRef spec0 0) : S50000x128.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Tile `t` of the reciprocal counts is the same rows of their one column. -/
theorem blk1_read (c : Dev nD) (t : Fin cfg0.N) (p : Fin 5000) (h : 5000 * t.val + p.val < 50000) :
    (Gen.iblk0 V c 1 t : Vec Ideal S5000x1 .f32) (ix2 p (0 : Fin 1))
      = (V c (Pipeline.arrRef spec0 1) : S50000x1.Idx → EReal) (ix2 ⟨5000 * t.val + p.val, h⟩ (0 : Fin 1)) := by
  obtain ⟨-, -, e0, e1, -⟩ := idx_facts t
  unfold Gen.iblk0
  rw [View.read_apply]
  show (V c (Pipeline.arrRef spec0 1) : S50000x1.Idx → EReal) (((cfg0.win 1).blk t).view.emb (ix2 p (0 : Fin 1))) = _
  refine congrArg (V c (Pipeline.arrRef spec0 1) : S50000x1.Idx → EReal) (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

/-- Tile `t` of the node features is the same rows of theirs. -/
theorem blk2_read (c : Dev nD) (t : Fin cfg0.N) (p : Fin 5000) (h : 5000 * t.val + p.val < 50000) (k : Fin 128) :
    (Gen.iblk0 V c 2 t : Vec Ideal S5000x128 .f32) (ix2 p k)
      = (V c (Pipeline.arrRef spec0 2) : S50000x128.Idx → EReal) (ix2 ⟨5000 * t.val + p.val, h⟩ k) := by
  obtain ⟨-, -, -, -, e0, e1, -⟩ := idx_facts t
  unfold Gen.iblk0
  rw [View.read_apply]
  show (V c (Pipeline.arrRef spec0 2) : S50000x128.Idx → EReal) (((cfg0.win 2).blk t).view.emb (ix2 p k)) = _
  refine congrArg (V c (Pipeline.arrRef spec0 2) : S50000x128.Idx → EReal) (funext fun a => Fin.ext ?_)
  match a with
  | ⟨0, _⟩ => show win0_2.index t (0 : Fin 2) * 5000 + 1 * p.val = 5000 * t.val + p.val; omega
  | ⟨1, _⟩ => show win0_2.index t (1 : Fin 2) * 128 + 1 * k.val = k.val; omega

/-- The first weight matrix is read whole at every point. -/
theorem blk3_read (c : Dev nD) (t : Fin cfg0.N) (k j : Fin 128) :
    (Gen.iblk0 V c 3 t : Vec Ideal S128x128 .f32) (ix2 k j)
      = (V c (Pipeline.arrRef spec0 3) : S128x128.Idx → EReal) (ix2 k j) := by
  obtain ⟨-, -, -, -, -, -, e0, e1, -⟩ := idx_facts t
  unfold Gen.iblk0
  rw [View.read_apply]
  show (V c (Pipeline.arrRef spec0 3) : S128x128.Idx → EReal) (((cfg0.win 3).blk t).view.emb (ix2 k j)) = _
  refine congrArg (V c (Pipeline.arrRef spec0 3) : S128x128.Idx → EReal) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- So is the second. -/
theorem blk4_read (c : Dev nD) (t : Fin cfg0.N) (k j : Fin 128) :
    (Gen.iblk0 V c 4 t : Vec Ideal S128x128 .f32) (ix2 k j)
      = (V c (Pipeline.arrRef spec0 4) : S128x128.Idx → EReal) (ix2 k j) := by
  obtain ⟨-, -, -, -, -, -, -, -, e0, e1, -⟩ := idx_facts t
  unfold Gen.iblk0
  rw [View.read_apply]
  show (V c (Pipeline.arrRef spec0 4) : S128x128.Idx → EReal) (((cfg0.win 4).blk t).view.emb (ix2 k j)) = _
  refine congrArg (V c (Pipeline.arrRef spec0 4) : S128x128.Idx → EReal) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- And the bias row. -/
theorem blk5_read (c : Dev nD) (t : Fin cfg0.N) (j : Fin 128) :
    (Gen.iblk0 V c 5 t : Vec Ideal S1x128 .f32) (ix2 (0 : Fin 1) j)
      = (V c (Pipeline.arrRef spec0 5) : S1x128.Idx → EReal) (ix2 (0 : Fin 1) j) := by
  obtain ⟨-, -, -, -, -, -, -, -, -, -, e0, e1, -⟩ := idx_facts t
  unfold Gen.iblk0
  rw [View.read_apply]
  show (V c (Pipeline.arrRef spec0 5) : S1x128.Idx → EReal) (((cfg0.win 5).blk t).view.emb (ix2 (0 : Fin 1) j)) = _
  refine congrArg (V c (Pipeline.arrRef spec0 5) : S1x128.Idx → EReal) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

/-! ## The hidden activations of the whole array, and a tile's as rows of them -/

/-- The hidden activations of the whole array, from the six arrays as the pass finds them: the neighbour mean is the
    aggregated sum scaled by the reciprocal count of its row. -/
abbrev H (c : Dev nD) : Fin 50000 → Fin 128 → EReal :=
  Cert.Sage.hid (Cert.Sage.scaled (V c (Pipeline.arrRef spec0 0)) (V c (Pipeline.arrRef spec0 1)))
    (V c (Pipeline.arrRef spec0 2)) (V c (Pipeline.arrRef spec0 3)) (V c (Pipeline.arrRef spec0 4))
    (Cert.Sage.row0 (V c (Pipeline.arrRef spec0 5)))

/-- Row `p` of tile `t`'s activations is row `5000 t + p` of the array's. -/
theorem tile_act (c : Dev nD) (t : Fin cfg0.N) (p : Fin 5000) (h : 5000 * t.val + p.val < 50000) (j : Fin 128) :
    Gen.k0_pay2 (F := Ideal) (Gen.iblk0 V c 0 t) (Gen.iblk0 V c 1 t) (Gen.iblk0 V c 2 t) (Gen.iblk0 V c 3 t)
        (Gen.iblk0 V c 4 t) (Gen.iblk0 V c 5 t) (ix2 p j)
      = H V c ⟨5000 * t.val + p.val, h⟩ j := by
  refine (pay2_apply (Gen.iblk0 V c 0 t) (Gen.iblk0 V c 1 t) (Gen.iblk0 V c 2 t) (Gen.iblk0 V c 3 t)
    (Gen.iblk0 V c 4 t) (Gen.iblk0 V c 5 t) p j).trans ?_
  unfold H Cert.Sage.hid Cert.Sage.scaled Cert.Sage.row0
  refine congrArg₂ max (congrArg₂ (· + ·) (congrArg₂ (· + ·) (Finset.sum_congr rfl fun k _ => ?_)
    (Finset.sum_congr rfl fun k _ => ?_)) ?_) rfl
  · rw [blk0_read V c t p h k, blk1_read V c t p h, blk3_read V c t k j]
  · rw [blk2_read V c t p h k, blk4_read V c t k j]
  · exact blk5_read V c t j

/-! ## What each point writes back, the cover, and the two arrays -/

theorem hz : (![0, 0] : Fin 2 → Nat) = fun _ => 0 := funext fun a => by fin_cases a <;> rfl

/-- The first partial array as one function of its index: row `r`, column `j` holds the partial row of column `j`
    of the activations. -/
def sumArr (c : Dev nD) : S80x128.Idx → EReal := fun i =>
  Cert.Sage.partialRow (fun r => H V c r ⟨(i 1).val, idx2_lt1 i⟩) ⟨(i 0).val, idx2_lt0 i⟩

/-- The second likewise, of the squared activations. -/
def sumsqArr (c : Dev nD) : S80x128.Idx → EReal := fun i =>
  Cert.Sage.partialRow (fun r => H V c r ⟨(i 1).val, idx2_lt1 i⟩ * H V c r ⟨(i 1).val, idx2_lt1 i⟩) ⟨(i 0).val, idx2_lt0 i⟩

/-- Row `q` of block `t` of an 80-row array is row `8 t + q`. -/
theorem blk6_emb (t : Fin cfg0.N) (q : Fin 8) (h : 8 * t.val + q.val < 80) (j : Fin 128) :
    (((cfg0.win 6).blk t).view.emb (ix2 q j) : S80x128.Idx) = ix2 ⟨8 * t.val + q.val, h⟩ j := by
  obtain ⟨-, -, -, -, -, -, -, -, -, -, -, -, e0, e1, -⟩ := idx_facts t
  refine funext fun a => Fin.ext ?_
  match a with
  | ⟨0, _⟩ => show win0_6.index t (0 : Fin 2) * 8 + 1 * q.val = 8 * t.val + q.val; omega
  | ⟨1, _⟩ => show win0_6.index t (1 : Fin 2) * 128 + 1 * j.val = j.val; omega

theorem blk7_emb (t : Fin cfg0.N) (q : Fin 8) (h : 8 * t.val + q.val < 80) (j : Fin 128) :
    (((cfg0.win 7).blk t).view.emb (ix2 q j) : S80x128.Idx) = ix2 ⟨8 * t.val + q.val, h⟩ j := by
  obtain ⟨-, -, -, -, -, -, -, -, -, -, -, -, -, -, e0, e1⟩ := idx_facts t
  refine funext fun a => Fin.ext ?_
  match a with
  | ⟨0, _⟩ => show win0_7.index t (0 : Fin 2) * 8 + 1 * q.val = 8 * t.val + q.val; omega
  | ⟨1, _⟩ => show win0_7.index t (1 : Fin 2) * 128 + 1 * j.val = j.val; omega

/-- A block's row-0 sum over the tile against the partial row of the array: row `8 t + q` is the first of its eight
    exactly when `q = 0`, and its tile is `t`. -/
theorem partialRow_tile (f : Fin 50000 → EReal) (g : Fin 5000 → EReal) (t q : ℕ) (ht : t < 10) (hq : q < 8)
    (h : 8 * t + q < 80) (hg : ∀ (p : Fin 5000) (hp : 5000 * t + p.val < 50000), g p = f ⟨5000 * t + p.val, hp⟩) :
    (if q = 0 then ∑ p : Fin 5000, g p else 0) = Cert.Sage.partialRow f ⟨8 * t + q, h⟩ := by
  unfold Cert.Sage.partialRow Cert.Sage.tileSum
  by_cases hq0 : q = 0
  · rw [if_pos hq0, if_pos (show (8 * t + q) % 8 = 0 by omega)]
    refine Finset.sum_congr rfl fun p _ => ?_
    have hp : 5000 * t + p.val < 50000 := by have := p.isLt; omega
    refine (hg p hp).trans (congrArg f (Fin.ext ?_))
    show 5000 * t + p.val = 5000 * ((8 * t + q) / 8) + p.val
    omega
  · rw [if_neg hq0, if_neg (show ¬(8 * t + q) % 8 = 0 by omega)]

/-- WHAT POINT `t` WRITES BACK to the first partial array is block `t` of `sumArr`. -/
theorem flushed_sum (c : Dev nD) (t : Fin cfg0.N) :
    (Gen.dat0 (F := Ideal) V c).flushed 6 t = ((cfg0.win 6).blk t).view.read (Elt Ideal) (sumArr V c) := by
  have ht : t.val < 10 := lt_of_lt_of_eq t.isLt Gen.N_0
  show (cfg0.win 6).cut (grid0.coords t) ((Gen.dat0 (F := Ideal) V c).after 6 t) = _
  rw [Gen.after0_6]
  unfold Gen.out0_6
  rw [View.canon_unit_zero hz]
  simp only [View.ld_unit_zero (S := S5000x128) hz, View.ld_unit_zero (S := S5000x1) hz,
    View.ld_unit_zero (S := S128x128) hz, View.ld_unit_zero (S := S1x128) hz]
  funext y
  obtain ⟨q, j, rfl⟩ : ∃ (q : Fin 8) (j : Fin 128), y = ix2 q j := ⟨y 0, y 1, eq_ix2 y⟩
  have h : 8 * t.val + q.val < 80 := by have := q.isLt; omega
  show Gen.k0_pay5 (F := Ideal) (Gen.iblk0 V c 0 t) (Gen.iblk0 V c 1 t) (Gen.iblk0 V c 2 t) (Gen.iblk0 V c 3 t)
      (Gen.iblk0 V c 4 t) (Gen.iblk0 V c 5 t) (ix2 q j) = sumArr V c (((cfg0.win 6).blk t).view.emb (ix2 q j))
  rw [blk6_emb t q h j]
  refine (pay5_apply (Gen.iblk0 V c 0 t) (Gen.iblk0 V c 1 t) (Gen.iblk0 V c 2 t) (Gen.iblk0 V c 3 t)
    (Gen.iblk0 V c 4 t) (Gen.iblk0 V c 5 t) q j).trans ?_
  exact partialRow_tile (fun r => H V c r j) _ t.val q.val ht q.isLt h fun p hp => tile_act V c t p hp j

/-- WHAT POINT `t` WRITES BACK to the second is block `t` of `sumsqArr`. -/
theorem flushed_sumsq (c : Dev nD) (t : Fin cfg0.N) :
    (Gen.dat0 (F := Ideal) V c).flushed 7 t = ((cfg0.win 7).blk t).view.read (Elt Ideal) (sumsqArr V c) := by
  have ht : t.val < 10 := lt_of_lt_of_eq t.isLt Gen.N_0
  show (cfg0.win 7).cut (grid0.coords t) ((Gen.dat0 (F := Ideal) V c).after 7 t) = _
  rw [Gen.after0_7]
  unfold Gen.out0_7
  rw [View.canon_unit_zero hz]
  simp only [View.ld_unit_zero (S := S5000x128) hz, View.ld_unit_zero (S := S5000x1) hz,
    View.ld_unit_zero (S := S128x128) hz, View.ld_unit_zero (S := S1x128) hz]
  funext y
  obtain ⟨q, j, rfl⟩ : ∃ (q : Fin 8) (j : Fin 128), y = ix2 q j := ⟨y 0, y 1, eq_ix2 y⟩
  have h : 8 * t.val + q.val < 80 := by have := q.isLt; omega
  show Gen.k0_pay1 (F := Ideal) (Gen.k0_pay3 (F := Ideal) (Gen.iblk0 V c 0 t) (Gen.iblk0 V c 1 t) (Gen.iblk0 V c 2 t)
      (Gen.iblk0 V c 3 t) (Gen.iblk0 V c 4 t) (Gen.iblk0 V c 5 t)) Gen.k0_pay4 (ix2 q j)
    = sumsqArr V c (((cfg0.win 7).blk t).view.emb (ix2 q j))
  rw [blk7_emb t q h j]
  refine (pay1_apply (Gen.iblk0 V c 0 t) (Gen.iblk0 V c 1 t) (Gen.iblk0 V c 2 t) (Gen.iblk0 V c 3 t)
    (Gen.iblk0 V c 4 t) (Gen.iblk0 V c 5 t) q j).trans ?_
  exact partialRow_tile (fun r => H V c r j * H V c r j) _ t.val q.val ht q.isLt h fun p hp => by
    rw [tile_act V c t p hp j]

/-- An index of an 80-row array is in point `t`'s block iff each coordinate is in the block's range on its axis. -/
theorem mem_blk6 (t : Fin cfg0.N) (i : S80x128.Idx) :
    i ∈ ((cfg0.win 6).blk t).view.set ↔ ∀ a : Fin 2, win0_6.index t a * S8x128.size a ≤ (i a).val
      ∧ (i a).val < win0_6.index t a * S8x128.size a + S8x128.size a := by
  show i ∈ ((View.whole main_v26_0).slice (win0_6.rect t)).set ↔ _
  rw [View.set_slice_whole, Rect.mem_set_unit]
  exact Iff.rfl

theorem mem_blk7 (t : Fin cfg0.N) (i : S80x128.Idx) :
    i ∈ ((cfg0.win 7).blk t).view.set ↔ ∀ a : Fin 2, win0_7.index t a * S8x128.size a ≤ (i a).val
      ∧ (i a).val < win0_7.index t a * S8x128.size a + S8x128.size a := by
  show i ∈ ((View.whole main_v26_1).slice (win0_7.rect t)).set ↔ _
  rw [View.set_slice_whole, Rect.mem_set_unit]
  exact Iff.rfl

/-- Row `r` lies in the block of point `r / 8`. -/
theorem cover6 (i : S80x128.Idx) : ∃ t : Fin cfg0.N, (cfg0.win 6).flush t = true ∧ i ∈ ((cfg0.win 6).blk t).view.set := by
  have hi0 : (i 0).val < 80 := idx2_lt0 i
  have hi1 : (i 1).val < 128 := idx2_lt1 i
  let t : Fin cfg0.N := ⟨(i 0).val / 8, lt_of_lt_of_eq (show (i 0).val / 8 < 10 by omega) Gen.N_0.symm⟩
  obtain ⟨-, -, -, -, -, -, -, -, -, -, -, -, e0, e1, -⟩ := idx_facts t
  have e0' : win0_6.index t (0 : Fin 2) = (i 0).val / 8 := e0
  refine ⟨t, Gen.flush0_6 t, ?_⟩
  rw [mem_blk6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

theorem cover7 (i : S80x128.Idx) : ∃ t : Fin cfg0.N, (cfg0.win 7).flush t = true ∧ i ∈ ((cfg0.win 7).blk t).view.set := by
  have hi0 : (i 0).val < 80 := idx2_lt0 i
  have hi1 : (i 1).val < 128 := idx2_lt1 i
  let t : Fin cfg0.N := ⟨(i 0).val / 8, lt_of_lt_of_eq (show (i 0).val / 8 < 10 by omega) Gen.N_0.symm⟩
  obtain ⟨-, -, -, -, -, -, -, -, -, -, -, -, -, -, e0, e1⟩ := idx_facts t
  have e0' : win0_7.index t (0 : Fin 2) = (i 0).val / 8 := e0
  refine ⟨t, Gen.flush0_7 t, ?_⟩
  rw [mem_blk7]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 128 ≤ (i 1).val ∧ (i 1).val < win0_7.index t (1 : Fin 2) * 128 + 128; omega

/-- THE FIRST PARTIAL ARRAY after the pass. -/
theorem arr_sum_eq (c : Dev nD) : (Gen.dat0 (F := Ideal) V c).arrAt 6 cfg0.N = sumArr V c :=
  (Gen.dat0 (F := Ideal) V c).arrAt_eq_of_cover 6 (sumArr V c) (fun t _ => flushed_sum V c t) cover6

/-- THE SECOND. -/
theorem arr_sumsq_eq (c : Dev nD) : (Gen.dat0 (F := Ideal) V c).arrAt 7 cfg0.N = sumsqArr V c :=
  (Gen.dat0 (F := Ideal) V c).arrAt_eq_of_cover 7 (sumsqArr V c) (fun t _ => flushed_sumsq V c t) cover7

/-- Row `r`, column `j` of the first partial array: the partial row of column `j` of the hidden activations. -/
theorem arr_sum (c : Dev nD) (r : Fin 80) (j : Fin 128) :
    ((Gen.dat0 (F := Ideal) V c).arrAt 6 cfg0.N : S80x128.Idx → EReal) (ix2 r j)
      = Cert.Sage.partialRow (fun i => H V c i j) r := by
  rw [arr_sum_eq V c]
  rfl

/-- Row `r`, column `j` of the second: the partial row of column `j` of their squares. -/
theorem arr_sumsq (c : Dev nD) (r : Fin 80) (j : Fin 128) :
    ((Gen.dat0 (F := Ideal) V c).arrAt 7 cfg0.N : S80x128.Idx → EReal) (ix2 r j)
      = Cert.Sage.partialRow (fun i => H V c i j * H V c i j) r := by
  rw [arr_sumsq_eq V c]
  rfl

end Cert.KernelIdeal.StatsValue

end
-- ==== Proof.Prefix.lean ====
/-
  The part both programs share word for word: from the node features and the edge list, the per-node sums of
  the source rows over incoming edges, and the per-node edge counts clamped below at one.

  Row 0 of the edge list holds each edge's source node, row 1 its destination. A negative source index is
  shifted by the number of nodes before the rows are gathered; the gathered rows are then added into a zero
  array at their destinations (an edge whose destination is out of range adds nothing), and a one per edge is
  added into a zero vector the same way.
-/
import proofs.«134507_j47201690583087_2_alg».proof.Proof.Gen.KernelIdeal
import Idealize.ShloMosaic.PureOps.Ideal

noncomputable section

namespace Cert.Sage

open Idealize.ShloMosaic Cert.KernelIdeal Cert.KernelIdeal.Facts₀ Cert.KernelIdeal.Facts

/-- Row `r` (0: sources, 1: destinations) of the edge list, as a vector of 800000 indices. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The source indices as the gather takes them: a negative index shifted by 50000, one index per row. -/
def srcIdx (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32))) (edgeRow0 ei))

/-- The destination indices as the scatters take them. -/
def dstIdx (ei : IVec S2x800000 32) : IVec S800000x1 32 :=
  broadcastInDim S800000x1 ![0] bcast_S800000_S800000x1_0 (edgeRow1 ei)

/-- The aggregated neighbour sums: the gathered source rows added into zero at their destinations. -/
def agg (X : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx ei)
    (Host.gather gather_S50000x128_S800000x1_S800000x128_1_0_n_n_0_1_1128 X (srcIdx ei))

/-- The neighbour counts, clamped below at one. -/
def cnt1 (ei : IVec S2x800000 32) : FVec Ideal S50000 .f32 :=
  maximumf
    (Host.scatterAdd scatter_S50000_S800000x1_S800000_n_0_0_1
      (broadcastInDim S50000 ![] bcast_S_S50000 (constant (F := Ideal) S_ .f32 0x00000000#32)) (dstIdx ei)
      (broadcastInDim S800000 ![] bcast_S_S800000 (constant (F := Ideal) S_ .f32 0x3F800000#32)))
    (broadcastInDim S50000 ![] bcast_S_S50000 (constant (F := Ideal) S_ .f32 0x3F800000#32))

end Cert.Sage

end
-- ==== Proof.HostReads0.lean ====
/-
  What the first region finds in its windows' arrays: the host operations before it, read at an index.

  The aggregated neighbour sums and the node features are taken whole; the reciprocal of the clamped neighbour
  count is read per node; the two weight matrices are read transposed; the bias is read as a one-row matrix.
-/
import proofs.«134507_j47201690583087_2_alg».proof.Proof.KerRun
import proofs.«134507_j47201690583087_2_alg».proof.Proof.Prefix
import proofs.«134507_j47201690583087_2_alg».proof.Proof.Spec
import Idealize.ShloMosaic.Lib.StableHlo.Run
import Idealize.ShloMosaic.Lib.ValueLayout
import Idealize.ShloMosaic.Lib.IdealHost

set_option maxRecDepth 16384
noncomputable section

namespace Cert.KernelIdeal.HostReads

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## The arrays as whole terms over the launch contents -/

set_option maxHeartbeats 400000 in
/-- The aggregated neighbour sums are the shared prefix of both programs. -/
theorem v1_agg : Gen.V1 (F := Ideal) m ρ c (Pipeline.arrRef spec0 0)
    = Cert.Sage.agg (m ((c.tc : Thread nD τ).loc main_arg0)) (m ((c.tc : Thread nD τ).loc main_arg1)) := by
  show StableHlo.after hostOps0 (W0 m ρ c) (Proc.devRef .tc main_v13) = _
  after_results
  rfl

set_option maxHeartbeats 400000 in
/-- The node features are the launch contents: no host operation writes them. -/
theorem v1_x : Gen.V1 (F := Ideal) m ρ c (Pipeline.arrRef spec0 2) = m ((c.tc : Thread nD τ).loc main_arg0) := by
  show StableHlo.after hostOps0 (W0 m ρ c) (Proc.devRef .tc main_arg0) = _
  after_results

set_option maxHeartbeats 400000 in
/-- The reciprocal counts as a column: one over the clamped count, reshaped from a vector to one column. -/
theorem v1_icnt_arr : Gen.V1 (F := Ideal) m ρ c main_v22
    = shapeCast S50000x1 (Host.divf (broadcastInDim S50000 ![] bcast_S_S50000 (constant (F := Ideal) S_ .f32 0x3F800000#32))
        (Cert.Sage.cnt1 (m ((c.tc : Thread nD τ).loc main_arg1)))) shapeCasts_S50000_S50000x1 := by
  show StableHlo.after hostOps0 (W0 m ρ c) (Proc.devRef .tc main_v22) = _
  after_results
  rfl

set_option maxHeartbeats 400000 in
theorem v1_wl_arr : Gen.V1 (F := Ideal) m ρ c main_v23
    = transpose S128x128 [1, 0] (m ((c.tc : Thread nD τ).loc main_arg2)) transposes_S128x128_S128x128_1_0 := by
  show StableHlo.after hostOps0 (W0 m ρ c) (Proc.devRef .tc main_v23) = _
  after_results

set_option maxHeartbeats 400000 in
theorem v1_wr_arr : Gen.V1 (F := Ideal) m ρ c main_v24
    = transpose S128x128 [1, 0] (m ((c.tc : Thread nD τ).loc main_arg3)) transposes_S128x128_S128x128_1_0 := by
  show StableHlo.after hostOps0 (W0 m ρ c) (Proc.devRef .tc main_v24) = _
  after_results

set_option maxHeartbeats 400000 in
theorem v1_b_arr : Gen.V1 (F := Ideal) m ρ c main_v25
    = shapeCast S1x128 (m ((c.tc : Thread nD τ).loc main_arg4)) shapeCasts_S128_S1x128 := by
  show StableHlo.after hostOps0 (W0 m ρ c) (Proc.devRef .tc main_v25) = _
  after_results
  rfl

/-! ## Read at an index -/

/-- Node `i`'s entry of the reciprocal-count column is one over its clamped count. -/
theorem v1_icnt (i : Fin 50000) : Gen.V1 (F := Ideal) m ρ c (Pipeline.arrRef spec0 1) (ix2 i (0 : Fin 1))
    = Ideal.div 1 (Cert.Sage.cnt1 (m ((c.tc : Thread nD τ).loc main_arg1)) (ix1 i)) := by
  show Gen.V1 (F := Ideal) m ρ c main_v22 (ix2 i (0 : Fin 1)) = _
  rw [v1_icnt_arr]
  refine (shapeCast_apply _ _ _ (ix1 i) ?_).trans ?_
  · rw [Shape.rowMajor_val_two, Shape.rowMajor_val_one]
    show i.val = i.val * 1 + 0
    omega
  · rw [hostDivf_apply, broadcastInDim_scalar_apply, constant_apply, Ideal.ofBits_one_f32]

/-- The first weight matrix is read transposed. -/
theorem v1_wl (k j : Fin 128) : Gen.V1 (F := Ideal) m ρ c (Pipeline.arrRef spec0 3) (ix2 k j)
    = m ((c.tc : Thread nD τ).loc main_arg2) (ix2 j k) := by
  show Gen.V1 (F := Ideal) m ρ c main_v23 (ix2 k j) = _
  rw [v1_wl_arr]
  exact transpose_ix2_apply _ _ k j

/-- The second weight matrix is read transposed. -/
theorem v1_wr (k j : Fin 128) : Gen.V1 (F := Ideal) m ρ c (Pipeline.arrRef spec0 4) (ix2 k j)
    = m ((c.tc : Thread nD τ).loc main_arg3) (ix2 j k) := by
  show Gen.V1 (F := Ideal) m ρ c main_v24 (ix2 k j) = _
  rw [v1_wr_arr]
  exact transpose_ix2_apply _ _ k j

/-- The bias vector is read as a one-row matrix. -/
theorem v1_b (j : Fin 128) : Gen.V1 (F := Ideal) m ρ c (Pipeline.arrRef spec0 5) (ix2 (0 : Fin 1) j)
    = m ((c.tc : Thread nD τ).loc main_arg4) (ix1 j) := by
  show Gen.V1 (F := Ideal) m ρ c main_v25 (ix2 (0 : Fin 1) j) = _
  rw [v1_b_arr]
  exact shapeCast_a_1a_apply _ _ 0 j

end Cert.KernelIdeal.HostReads
end
-- ==== Proof.HostReads1.lean ====
/-
  What the second region finds in its windows' arrays.

  Its six shared inputs are what the first region found: the first region writes back only its two partial-sum
  arrays, and no host operation between the regions writes them. The column mean is the sum over the eighty
  partial rows of the first partial array divided by the number of rows; the inverse standard deviation is the
  reciprocal square root of (mean of squares minus squared mean, clamped below at zero, plus epsilon); scale and
  shift are read as one-row matrices.
-/
import proofs.«134507_j47201690583087_2_alg».proof.Proof.HostReads0

set_option maxRecDepth 16384
noncomputable section

namespace Cert.KernelIdeal.HostReads

open Cert.KernelIdeal Cert.KernelIdeal.Gen Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg) (c : Dev nD)

/-! ## The six shared inputs -/

set_option maxHeartbeats 400000 in
theorem v3_same0 : Gen.V3 (F := Ideal) m ρ c (Pipeline.arrRef spec1 0) = Gen.V1 (F := Ideal) m ρ c (Pipeline.arrRef spec0 0) := by
  have h1 : Gen.V3 (F := Ideal) m ρ c main_v13 = W2 m ρ c (Proc.devRef .tc main_v13) := by
    show StableHlo.after hostOps1 (W2 m ρ c) (Proc.devRef .tc main_v13) = _
    after_results
  exact h1.trans ((W2_arr m ρ c 0).trans (((dat0 (V1 m ρ) c).arrAt_in 0 rfl _).trans (A_eq0 (V1 m ρ) c 0)))

set_option maxHeartbeats 400000 in
theorem v3_same1 : Gen.V3 (F := Ideal) m ρ c (Pipeline.arrRef spec1 1) = Gen.V1 (F := Ideal) m ρ c (Pipeline.arrRef spec0 1) := by
  have h1 : Gen.V3 (F := Ideal) m ρ c main_v22 = W2 m ρ c (Proc.devRef .tc main_v22) := by
    show StableHlo.after hostOps1 (W2 m ρ c) (Proc.devRef .tc main_v22) = _
    after_results
  exact h1.trans ((W2_arr m ρ c 1).trans (((dat0 (V1 m ρ) c).arrAt_in 1 rfl _).trans (A_eq0 (V1 m ρ) c 1)))

set_option maxHeartbeats 400000 in
theorem v3_same2 : Gen.V3 (F := Ideal) m ρ c (Pipeline.arrRef spec1 2) = Gen.V1 (F := Ideal) m ρ c (Pipeline.arrRef spec0 2) := by
  have h1 : Gen.V3 (F := Ideal) m ρ c main_arg0 = W2 m ρ c (Proc.devRef .tc main_arg0) := by
    show StableHlo.after hostOps1 (W2 m ρ c) (Proc.devRef .tc main_arg0) = _
    after_results
  exact h1.trans ((W2_arr m ρ c 2).trans (((dat0 (V1 m ρ) c).arrAt_in 2 rfl _).trans (A_eq0 (V1 m ρ) c 2)))

set_option maxHeartbeats 400000 in
theorem v3_same3 : Gen.V3 (F := Ideal) m ρ c (Pipeline.arrRef spec1 3) = Gen.V1 (F := Ideal) m ρ c (Pipeline.arrRef spec0 3) := by
  have h1 : Gen.V3 (F := Ideal) m ρ c main_v23 = W2 m ρ c (Proc.devRef .tc main_v23) := by
    show StableHlo.after hostOps1 (W2 m ρ c) (Proc.devRef .tc main_v23) = _
    after_results
  exact h1.trans ((W2_arr m ρ c 3).trans (((dat0 (V1 m ρ) c).arrAt_in 3 rfl _).trans (A_eq0 (V1 m ρ) c 3)))

set_option maxHeartbeats 400000 in
theorem v3_same4 : Gen.V3 (F := Ideal) m ρ c (Pipeline.arrRef spec1 4) = Gen.V1 (F := Ideal) m ρ c (Pipeline.arrRef spec0 4) := by
  have h1 : Gen.V3 (F := Ideal) m ρ c main_v24 = W2 m ρ c (Proc.devRef .tc main_v24) := by
    show StableHlo.after hostOps1 (W2 m ρ c) (Proc.devRef .tc main_v24) = _
    after_results
  exact h1.trans ((W2_arr m ρ c 4).trans (((dat0 (V1 m ρ) c).arrAt_in 4 rfl _).trans (A_eq0 (V1 m ρ) c 4)))

set_option maxHeartbeats 400000 in
theorem v3_same5 : Gen.V3 (F := Ideal) m ρ c (Pipeline.arrRef spec1 5) = Gen.V1 (F := Ideal) m ρ c (Pipeline.arrRef spec0 5) := by
  have h1 : Gen.V3 (F := Ideal) m ρ c main_v25 = W2 m ρ c (Proc.devRef .tc main_v25) := by
    show StableHlo.after hostOps1 (W2 m ρ c) (Proc.devRef .tc main_v25) = _
    after_results
  exact h1.trans ((W2_arr m ρ c 5).trans (((dat0 (V1 m ρ) c).arrAt_in 5 rfl _).trans (A_eq0 (V1 m ρ) c 5)))

/-! ## The shared inputs in the forms the first region's entry has them -/

theorem v3_agg : Gen.V3 (F := Ideal) m ρ c (Pipeline.arrRef spec1 0)
    = Cert.Sage.agg (m ((c.tc : Thread nD τ).loc main_arg0)) (m ((c.tc : Thread nD τ).loc main_arg1)) :=
  (v3_same0 m ρ c).trans (v1_agg m ρ c)

theorem v3_x : Gen.V3 (F := Ideal) m ρ c (Pipeline.arrRef spec1 2) = m ((c.tc : Thread nD τ).loc main_arg0) :=
  (v3_same2 m ρ c).trans (v1_x m ρ c)

theorem v3_icnt (i : Fin 50000) : Gen.V3 (F := Ideal) m ρ c (Pipeline.arrRef spec1 1) (ix2 i (0 : Fin 1))
    = Ideal.div 1 (Cert.Sage.cnt1 (m ((c.tc : Thread nD τ).loc main_arg1)) (ix1 i)) :=
  (congrFun (v3_same1 m ρ c) _).trans (v1_icnt m ρ c i)

theorem v3_wl (k j : Fin 128) : Gen.V3 (F := Ideal) m ρ c (Pipeline.arrRef spec1 3) (ix2 k j)
    = m ((c.tc : Thread nD τ).loc main_arg2) (ix2 j k) :=
  (congrFun (v3_same3 m ρ c) _).trans (v1_wl m ρ c k j)

theorem v3_wr (k j : Fin 128) : Gen.V3 (F := Ideal) m ρ c (Pipeline.arrRef spec1 4) (ix2 k j)
    = m ((c.tc : Thread nD τ).loc main_arg3) (ix2 j k) :=
  (congrFun (v3_same4 m ρ c) _).trans (v1_wr m ρ c k j)

theorem v3_b (j : Fin 128) : Gen.V3 (F := Ideal) m ρ c (Pipeline.arrRef spec1 5) (ix2 (0 : Fin 1) j)
    = m ((c.tc : Thread nD τ).loc main_arg4) (ix1 j) :=
  (congrFun (v3_same5 m ρ c) _).trans (v1_b m ρ c j)

/-! ## Scale and shift -/

set_option maxHeartbeats 400000 in
/-- No host operation and no write-back of the first region touches the scale vector. -/
theorem w2_arg5 : W2 (F := Ideal) m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results

set_option maxHeartbeats 400000 in
theorem w2_arg6 : W2 (F := Ideal) m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results

set_option maxHeartbeats 400000 in
theorem v3_gamma_arr : Gen.V3 (F := Ideal) m ρ c main_v42
    = shapeCast S1x128 (m ((c.tc : Thread nD τ).loc main_arg5)) shapeCasts_S128_S1x128 := by
  rw [← w2_arg5 m ρ c]
  show StableHlo.after hostOps1 (W2 m ρ c) (Proc.devRef .tc main_v42) = _
  after_results
  rfl

set_option maxHeartbeats 400000 in
theorem v3_beta_arr : Gen.V3 (F := Ideal) m ρ c main_v43
    = shapeCast S1x128 (m ((c.tc : Thread nD τ).loc main_arg6)) shapeCasts_S128_S1x128 := by
  rw [← w2_arg6 m ρ c]
  show StableHlo.after hostOps1 (W2 m ρ c) (Proc.devRef .tc main_v43) = _
  after_results
  rfl

/-- The scale vector is read as a one-row matrix. -/
theorem v3_gamma (j : Fin 128) : Gen.V3 (F := Ideal) m ρ c (Pipeline.arrRef spec1 8) (ix2 (0 : Fin 1) j)
    = m ((c.tc : Thread nD τ).loc main_arg5) (ix1 j) := by
  show Gen.V3 (F := Ideal) m ρ c main_v42 (ix2 (0 : Fin 1) j) = _
  rw [v3_gamma_arr]
  exact shapeCast_a_1a_apply _ _ 0 j

/-- The shift vector is read as a one-row matrix. -/
theorem v3_beta (j : Fin 128) : Gen.V3 (F := Ideal) m ρ c (Pipeline.arrRef spec1 9) (ix2 (0 : Fin 1) j)
    = m ((c.tc : Thread nD τ).loc main_arg6) (ix1 j) := by
  show Gen.V3 (F := Ideal) m ρ c main_v43 (ix2 (0 : Fin 1) j) = _
  rw [v3_beta_arr]
  exact shapeCast_a_1a_apply _ _ 0 j

end Cert.KernelIdeal.HostReads
end
-- ==== Proof.HostReads2.lean ====
/-
  The column statistics the second region finds: the mean and the inverse standard deviation of each column,
  computed between the regions from the first region's two arrays of partial sums.

  Each statistic sums the eighty partial rows of a column, starting from zero, and divides by the number of rows.
  The variance is the mean of squares minus the squared mean, clamped below at zero; epsilon is added and the
  reciprocal square root taken.
-/
import proofs.«134507_j47201690583087_2_alg».proof.Proof.HostReads1
import proofs.«134507_j47201690583087_2_alg».proof.Proof.Views

set_option maxRecDepth 16384
noncomputable section

namespace Cert.KernelIdeal.HostReads

open Cert.KernelIdeal Cert.KernelIdeal.Gen Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg) (c : Dev nD)

/-- A column sum from zero: the host's reduction over the rows of an eighty-row array, read at column `j`. -/
theorem colSum_apply (X : FVec Ideal S80x128 .f32) (j : Fin 128) :
    Host.reduceAdd X (constant (F := Ideal) S_ .f32 0x00000000#32) reducesTo_S80x128_S128_d0 h_S_ (ix1 j)
      = Cert.Sage.sum80 X j := by
  unfold Cert.Sage.sum80
  rw [hostReduceAdd_apply, constant_apply, Ideal.ofBits_zero_f32,
    Ideal.hostReduceAdd_single reducesTo_S80x128_S128_d0 (by decide : S80x128.Reduces [0] S128)]
  refine congrArg (fun s => (0 : EReal) + s) ?_
  exact Finset.sum_congr rfl fun k _ => congrArg X (funext fun d => match d with
    | ⟨0, _⟩ => Fin.ext rfl
    | ⟨1, _⟩ => Fin.ext rfl)

/-- A scalar constant broadcast to a 128-vector reads the constant. -/
theorem splat128_apply (b : BitVec 32) (j : Fin 128) :
    broadcastInDim S128 ![] bcast_S_S128 (constant (F := Ideal) S_ .f32 b) (ix1 j) = Ideal.ofBits .f32 b := by
  rw [broadcastInDim_scalar_apply, constant_apply]

set_option maxHeartbeats 800000 in
/-- The mean row as a whole term over the first partial-sum array as the first region leaves it. -/
theorem v3_mu_arr : Gen.V3 (F := Ideal) m ρ c main_v40
    = shapeCast S1x128 (Host.divf (Host.reduceAdd (W2 m ρ c (Proc.devRef .tc main_v26_0)) (constant (F := Ideal) S_ .f32 0x00000000#32) reducesTo_S80x128_S128_d0 h_S_)
        (broadcastInDim S128 ![] bcast_S_S128 (constant (F := Ideal) S_ .f32 0x47435000#32))) shapeCasts_S128_S1x128 := by
  show StableHlo.after hostOps1 (W2 m ρ c) (Proc.devRef .tc main_v40) = _
  after_results
  rfl

set_option maxHeartbeats 800000 in
/-- The inverse-standard-deviation row as a whole term over the two partial-sum arrays. -/
theorem v3_istd_arr : Gen.V3 (F := Ideal) m ρ c main_v41
    = shapeCast S1x128 (Host.rsqrt (addf (maximumf (subf
          (Host.divf (Host.reduceAdd (W2 m ρ c (Proc.devRef .tc main_v26_1)) (constant (F := Ideal) S_ .f32 0x00000000#32) reducesTo_S80x128_S128_d0 h_S_)
            (broadcastInDim S128 ![] bcast_S_S128 (constant (F := Ideal) S_ .f32 0x47435000#32)))
          (mulf
            (Host.divf (Host.reduceAdd (W2 m ρ c (Proc.devRef .tc main_v26_0)) (constant (F := Ideal) S_ .f32 0x00000000#32) reducesTo_S80x128_S128_d0 h_S_)
              (broadcastInDim S128 ![] bcast_S_S128 (constant (F := Ideal) S_ .f32 0x47435000#32)))
            (Host.divf (Host.reduceAdd (W2 m ρ c (Proc.devRef .tc main_v26_0)) (constant (F := Ideal) S_ .f32 0x00000000#32) reducesTo_S80x128_S128_d0 h_S_)
              (broadcastInDim S128 ![] bcast_S_S128 (constant (F := Ideal) S_ .f32 0x47435000#32)))))
          (broadcastInDim S128 ![] bcast_S_S128 (constant (F := Ideal) S_ .f32 0x00000000#32)))
          (broadcastInDim S128 ![] bcast_S_S128 (constant (F := Ideal) S_ .f32 0x3727C5AC#32)))) shapeCasts_S128_S1x128 := by
  show StableHlo.after hostOps1 (W2 m ρ c) (Proc.devRef .tc main_v41) = _
  after_results
  rfl

/-- The first region's two partial-sum arrays are, at the second region's host operations, what its write-backs leave. -/
theorem w2_part0 : W2 (F := Ideal) m ρ c (Proc.devRef .tc main_v26_0) = (Gen.dat0 (Gen.V1 m ρ) c).arrAt 6 cfg0.N :=
  W2_arr m ρ c 6
theorem w2_part1 : W2 (F := Ideal) m ρ c (Proc.devRef .tc main_v26_1) = (Gen.dat0 (Gen.V1 m ρ) c).arrAt 7 cfg0.N :=
  W2_arr m ρ c 7

/-- The host's reciprocal square root reads pointwise. -/
theorem hostRsqrt_apply {s : Shape} {φ : FTy} (x : FVec Ideal s φ) (i : s.Idx) : Host.rsqrt x i = Ideal.rsqrt (x i) := rfl

/-- Column `j`'s mean: the sum of the eighty partial rows of the first partial array over the number of rows. -/
theorem v3_mu (j : Fin 128) : Gen.V3 (F := Ideal) m ρ c (Pipeline.arrRef spec1 6) (ix2 (0 : Fin 1) j)
    = Ideal.div (Cert.Sage.sum80 ((Gen.dat0 (Gen.V1 (F := Ideal) m ρ) c).arrAt 6 cfg0.N) j) Cert.Sage.nrows := by
  show Gen.V3 (F := Ideal) m ρ c main_v40 (ix2 (0 : Fin 1) j) = _
  rw [v3_mu_arr]
  refine (shapeCast_a_1a_apply _ _ 0 j).trans ?_
  rw [hostDivf_apply, colSum_apply, splat128_apply, w2_part0]
  rfl

/-- Column `j`'s inverse standard deviation. -/
theorem v3_istd (j : Fin 128) : Gen.V3 (F := Ideal) m ρ c (Pipeline.arrRef spec1 7) (ix2 (0 : Fin 1) j)
    = Ideal.rsqrt (max (Ideal.div (Cert.Sage.sum80 ((Gen.dat0 (Gen.V1 (F := Ideal) m ρ) c).arrAt 7 cfg0.N) j) Cert.Sage.nrows
        - Ideal.div (Cert.Sage.sum80 ((Gen.dat0 (Gen.V1 (F := Ideal) m ρ) c).arrAt 6 cfg0.N) j) Cert.Sage.nrows
          * Ideal.div (Cert.Sage.sum80 ((Gen.dat0 (Gen.V1 (F := Ideal) m ρ) c).arrAt 6 cfg0.N) j) Cert.Sage.nrows) 0
        + Cert.Sage.eps) := by
  show Gen.V3 (F := Ideal) m ρ c main_v41 (ix2 (0 : Fin 1) j) = _
  rw [v3_istd_arr]
  refine (shapeCast_a_1a_apply _ _ 0 j).trans ?_
  simp only [hostRsqrt_apply, addf_apply, maximumf_apply, subf_apply, mulf_apply, hostDivf_apply, colSum_apply]
  rw [splat128_apply, splat128_apply, splat128_apply, Ideal.ofBits_zero_f32, w2_part0, w2_part1]
  rfl

end Cert.KernelIdeal.HostReads
end
-- ==== Proof.Reals.lean ====
/-
  Extended reals that are real numbers: the predicate and its closure under the operations both programs
  apply. Every value either program computes from finite inputs is a real number, and on real numbers the
  extended-real operations are the real ones.
-/
import Idealize.ShloMosaic.PureOps.Ideal

noncomputable section

namespace Cert.Sage

open Idealize.ShloMosaic

/-- `x` is (the coercion of) a real number: neither infinity. -/
def IsReal (x : EReal) : Prop := ∃ r : ℝ, x = (r : EReal)

theorem isReal_coe (r : ℝ) : IsReal (r : EReal) := ⟨r, rfl⟩

theorem isReal_zero : IsReal 0 := ⟨0, by simp⟩

theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.sub {x y : EReal} (hx : IsReal x) (hy : IsReal y) : IsReal (x - y) := by
  obtain ⟨a, rfl⟩ := hx; obtain ⟨b, rfl⟩ := hy; exact ⟨a - b, by rw [EReal.coe_sub]⟩

theorem IsReal.max {x y : EReal} (hx : IsReal x) (hy : IsReal y) : IsReal (max x y) := by
  rcases le_total x y with h | h
  · rw [max_eq_right h]; exact hy
  · rw [max_eq_left h]; exact hx

/-- A finite sum of real numbers is a real number, and it is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

end Cert.Sage

end
-- ==== Proof.Canon.lean ====
/-
  The layer as ONE function of the inputs: from the neighbour means, the features, the two weight matrices,
  the bias, the scale and the shift. Both programs are shown to compute `result`; they differ only in how
  they spell the neighbour mean (a product with a reciprocal, or a quotient), the column sums (tile by tile, or
  at once) and the variance (mean of squares minus squared mean, or mean of squared deviations).
-/
import proofs.«134507_j47201690583087_2_alg».proof.Proof.Spec
import proofs.«134507_j47201690583087_2_alg».proof.Proof.Reals

noncomputable section

namespace Cert.Sage

open Idealize.ShloMosaic Idealize.ShloMosaic.ValueIdx

/-- A vector of 128 extended reals. -/
abbrev Vec128 := (⟨1, ![128]⟩ : Shape).Idx → EReal

/-- The hidden activation over the weights as given (row `j` of a weight matrix holds output column `j`'s
    coefficients): `max (∑ₖ mean i k · W_l j k + ∑ₖ x i k · W_r j k + b j) 0`. -/
def hidT (mean : Fin 50000 → Fin 128 → EReal) (X : Arr 50000 128) (Wl Wr : Arr 128 128) (b : Vec128)
    (i : Fin 50000) (j : Fin 128) : EReal :=
  max (((∑ k : Fin 128, mean i k * Wl (ix2 j k)) + ∑ k : Fin 128, X (ix2 i k) * Wr (ix2 j k)) + b (ix1 j)) 0

/-- Column `j`'s sum over the 50000 rows, from zero. -/
def colSum (h : Fin 50000 → Fin 128 → EReal) (j : Fin 128) : EReal := 0 + ∑ i : Fin 50000, h i j

/-- Column `j`'s mean. -/
def mu (h : Fin 50000 → Fin 128 → EReal) (j : Fin 128) : EReal := Ideal.div (colSum h j) nrows

/-- Column `j`'s variance: the mean of the squared deviations from the column mean. -/
def varDev (h : Fin 50000 → Fin 128 → EReal) (j : Fin 128) : EReal :=
  Ideal.div (0 + ∑ i : Fin 50000, (h i j - mu h j) * (h i j - mu h j)) nrows

/-- The reciprocal standard deviation, guarded by `eps`. -/
def istd (v : Fin 128 → EReal) (j : Fin 128) : EReal := Ideal.rsqrt (v j + eps)

/-- The layer's result at row `i`, column `j`. -/
def result (mean : Fin 50000 → Fin 128 → EReal) (X : Arr 50000 128) (Wl Wr : Arr 128 128) (b g be : Vec128)
    (i : Fin 50000) (j : Fin 128) : EReal :=
  out X (hidT mean X Wl Wr b) (mu (hidT mean X Wl Wr b)) (istd (varDev (hidT mean X Wl Wr b)))
    (fun j => g (ix1 j)) (fun j => be (ix1 j)) i j

/-- The hidden activations of real inputs are real. -/
theorem isReal_hidT {mean : Fin 50000 → Fin 128 → EReal} {X : Arr 50000 128} {Wl Wr : Arr 128 128} {b : Vec128}
    (hm : ∀ i k, IsReal (mean i k)) (hX : ∀ y, IsReal (X y)) (hl : ∀ y, IsReal (Wl y)) (hr : ∀ y, IsReal (Wr y))
    (hb : ∀ y, IsReal (b y)) (i : Fin 50000) (j : Fin 128) : IsReal (hidT mean X Wl Wr b i j) :=
  ((((isReal_sum _ _ fun k _ => (hm i k).mul (hl _)).add (isReal_sum _ _ fun k _ => (hX _).mul (hr _))).add (hb _)).max
    isReal_zero)

end Cert.Sage

end
-- ==== Proof.Algebra.lean ====
/-
  The laws that join the two programs, on the extended reals.

  * A column summed tile by tile, each tile's sum kept in the first of eight rows of zeros, is the column summed
    over all rows (`sum_partialRow`): sums of extended reals may be regrouped freely.
  * On real numbers the mean of the squares minus the square of the mean is the mean of the squared
    deviations, and is not negative, so clamping it at zero changes nothing (`var_eq`). This needs every
    entry to be a real number: with an infinite entry the two sides differ.
  * Multiplying by the reciprocal of a nonzero real number is dividing by it (`mul_inv_eq_div`).
-/
import proofs.«134507_j47201690583087_2_alg».proof.Proof.Spec
import proofs.«134507_j47201690583087_2_alg».proof.Proof.Reals

noncomputable section

namespace Cert.Sage

open Idealize.ShloMosaic

/-! ## The literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem nrows_eq : nrows = ((50000 : ℝ) : EReal) := by
  unfold nrows
  simp [Ideal.ofBits, Ideal.ieee, -EReal.coe_mul]; norm_num

/-! ## Regrouping a column sum -/

theorem sum_tiles (f : Fin 50000 → EReal) : ∑ t : Fin 10, tileSum f t = ∑ i : Fin 50000, f i := by
  unfold tileSum
  rw [← Equiv.sum_comp (finProdFinEquiv (m := 10) (n := 5000)) f, Fintype.sum_prod_type]
  refine Finset.sum_congr rfl fun t _ => Finset.sum_congr rfl fun p _ => ?_
  refine congrArg f (Fin.ext ?_)
  simp [finProdFinEquiv]
  omega

theorem sum_rows_of_tile (f : Fin 50000 → EReal) (t : Fin 10) :
    ∑ q : Fin 8, partialRow f (finProdFinEquiv (t, q)) = tileSum f t := by
  rw [Finset.sum_eq_single (0 : Fin 8)]
  · unfold partialRow
    have hv : (finProdFinEquiv (t, (0 : Fin 8))).val = 8 * t.val := by simp [finProdFinEquiv]
    rw [if_pos (by rw [hv]; omega)]
    refine congrArg (tileSum f) (Fin.ext ?_)
    show (finProdFinEquiv (t, (0 : Fin 8))).val / 8 = t.val
    rw [hv]; omega
  · intro q _ hq
    unfold partialRow
    have hv : (finProdFinEquiv (t, q)).val = q.val + 8 * t.val := by simp [finProdFinEquiv]
    have hq' : q.val ≠ 0 := fun h => hq (Fin.ext h)
    rw [if_neg (by rw [hv]; omega)]
  · intro h; exact absurd (Finset.mem_univ _) h

theorem sum_partialRow (f : Fin 50000 → EReal) : ∑ r : Fin 80, partialRow f r = ∑ i : Fin 50000, f i := by
  rw [← sum_tiles]
  have h := Equiv.sum_comp (finProdFinEquiv (m := 10) (n := 8)) (partialRow f)
  rw [Fintype.sum_prod_type] at h
  rw [← h]
  exact Finset.sum_congr rfl fun t _ => sum_rows_of_tile f t

/-! ## The variance -/

theorem real_var (n : ℕ) (hn : (n : ℝ) ≠ 0) (a : Fin n → ℝ) :
    (∑ i, a i * a i) / n - ((∑ i, a i) / n) * ((∑ i, a i) / n)
      = (∑ i, (a i - (∑ i, a i) / n) * (a i - (∑ i, a i) / n)) / n := by
  set S := ∑ i, a i with hS
  have h : ∑ i, (a i - S / n) * (a i - S / n) = (∑ i, a i * a i) - 2 * (S / n) * S + n * ((S / n) * (S / n)) := by
    have : ∀ i, (a i - S / n) * (a i - S / n) = a i * a i - 2 * (S / n) * a i + (S / n) * (S / n) := fun i => by ring
    simp only [this, Finset.sum_add_distrib, Finset.sum_sub_distrib, ← Finset.mul_sum, Finset.sum_const,
      Finset.card_univ, Fintype.card_fin, nsmul_eq_mul, ← hS]
    ring
  rw [h]
  field_simp
  ring

theorem div_nrows (r : ℝ) : Ideal.div (r : EReal) nrows = ((r / 50000 : ℝ) : EReal) := by
  rw [nrows_eq, Ideal.div_coe (by norm_num : (50000 : ℝ) ≠ 0), ← EReal.coe_mul]
  congr 1; ring

/-- The clamped "mean of squares minus squared mean" of a real column is the mean of its squared deviations. -/
theorem var_eq (h : Fin 50000 → EReal) (hh : ∀ i, IsReal (h i)) :
    max (Ideal.div (0 + ∑ i, h i * h i) nrows
          - Ideal.div (0 + ∑ i, h i) nrows * Ideal.div (0 + ∑ i, h i) nrows) 0
      = Ideal.div (0 + ∑ i, (h i - Ideal.div (0 + ∑ i, h i) nrows) * (h i - Ideal.div (0 + ∑ i, h i) nrows)) nrows := by
  choose a ha using hh
  have hfun : h = fun i => ((a i : ℝ) : EReal) := funext ha
  subst hfun
  have e1 : (0 : EReal) + ∑ i, ((a i : ℝ) : EReal) = ((∑ i, a i : ℝ) : EReal) := by rw [zero_add, coe_sum]
  have e2 : (0 : EReal) + ∑ i, ((a i : ℝ) : EReal) * ((a i : ℝ) : EReal) = ((∑ i, a i * a i : ℝ) : EReal) := by
    rw [zero_add, ← coe_sum]; exact Finset.sum_congr rfl fun i _ => (EReal.coe_mul _ _).symm
  rw [e1, e2, div_nrows, div_nrows]
  have e3 : (0 : EReal) + ∑ i, (((a i : ℝ) : EReal) - (((∑ i, a i) / 50000 : ℝ) : EReal)) * (((a i : ℝ) : EReal) - (((∑ i, a i) / 50000 : ℝ) : EReal))
      = ((∑ i, (a i - (∑ i, a i) / 50000) * (a i - (∑ i, a i) / 50000) : ℝ) : EReal) := by
    rw [zero_add, ← coe_sum]
    exact Finset.sum_congr rfl fun i _ => by rw [← EReal.coe_sub, ← EReal.coe_mul]
  rw [e3, div_nrows, ← EReal.coe_mul, ← EReal.coe_sub]
  have hv := real_var 50000 (by norm_num) a
  have hv' : (∑ i, a i * a i) / 50000 - (∑ i, a i) / 50000 * ((∑ i, a i) / 50000)
      = (∑ i, (a i - (∑ i, a i) / 50000) * (a i - (∑ i, a i) / 50000)) / 50000 := by
    have := hv; push_cast at this; exact this
  rw [hv']
  refine max_eq_left ?_
  rw [EReal.coe_nonneg]
  exact div_nonneg (Finset.sum_nonneg fun i _ => mul_self_nonneg _) (by norm_num)

/-! ## The mean -/

theorem mul_inv_eq_div (A : EReal) {r : ℝ} (hr : r ≠ 0) :
    A * Ideal.div 1 (r : EReal) = Ideal.div A (r : EReal) := by
  rw [Ideal.div_coe hr, Ideal.div_coe hr, one_mul]

end Cert.Sage

end
-- ==== Proof.Finite.lean ====
/-
  Everything the shared part computes from real inputs is real.

  At the extended reals the accumulating scatter gives, at each position, the operand there plus the sum of the
  updates that land there: a finite sum. A gather only copies entries of its operand. So the aggregated
  neighbour sums of a real feature array are zero plus a finite sum of entries of that array, hence real; and
  the neighbour count is zero plus a finite sum of ones, a natural number, whose maximum with one is a real
  number that is at least one.
-/
import proofs.«134507_j47201690583087_2_alg».proof.Proof.Prefix
import proofs.«134507_j47201690583087_2_alg».proof.Proof.Reals
import Idealize.ShloMosaic.Lib.IdealHost

noncomputable section

namespace Cert.Sage

open Idealize.ShloMosaic Cert.KernelIdeal Cert.KernelIdeal.Facts₀ Cert.KernelIdeal.Facts

/-- An accumulating scatter of real updates into a real operand is real at every position. -/
theorem scatterAdd_real {s si u : Shape} {w : Nat} (d : ScatterDims s si u) (x : FVec Ideal s .f32)
    (idx : IVec si w) (upd : FVec Ideal u .f32) (hx : ∀ i, IsReal (x i)) (hu : ∀ j, IsReal (upd j)) (i : s.Idx) :
    IsReal (Host.scatterAdd d x idx upd i) := by
  simp only [Host.scatterAdd, Ideal.hostScatterAdd_def, Ideal.hostScatterAdd]
  exact (hx i).add (isReal_sum _ _ fun j _ => hu j)

/-- An accumulating scatter of one constant c adds, at each position, a natural multiple of c. -/
theorem scatterAdd_const {s si u : Shape} {w : Nat} (d : ScatterDims s si u) (x : FVec Ideal s .f32)
    (idx : IVec si w) (upd : FVec Ideal u .f32) (c : EReal) (hupd : ∀ j, upd j = c) (i : s.Idx) :
    ∃ n : ℕ, Host.scatterAdd d x idx upd i = x i + n • c := by
  simp only [Host.scatterAdd, Ideal.hostScatterAdd_def, Ideal.hostScatterAdd]
  rw [Finset.sum_congr rfl (fun j _ => hupd j), Finset.sum_const]
  exact ⟨_, rfl⟩

/-- Every entry of a gather is an entry of its operand. -/
theorem gather_real {s si t : Shape} {w : Nat} (d : GatherDims s si t) (X : s.Idx → EReal) (idx : IVec si w)
    (hX : ∀ y, IsReal (X y)) (j : t.Idx) : IsReal (Host.gather d X idx j) :=
  hX _

/-- The aggregated neighbour sums of a real feature array are real. -/
theorem agg_real (X : FVec Ideal S50000x128 .f32) (ei : IVec S2x800000 32) (hX : ∀ y, IsReal (X y)) :
    ∀ y, IsReal (agg X ei y) := by
  intro y
  unfold agg
  refine scatterAdd_real _ _ _ _ (fun i => ?_) (fun j => gather_real _ X _ hX j) y
  rw [ValueIdx.broadcastInDim_scalar_apply, ValueIdx.constant_apply, Ideal.ofBits_zero_f32]
  exact isReal_zero

/-- The clamped neighbour count is a real number that is at least one. -/
theorem cnt1_real (ei : IVec S2x800000 32) : ∀ y, ∃ r : ℝ, 1 ≤ r ∧ cnt1 ei y = (r : EReal) := by
  intro y
  obtain ⟨n, hn⟩ := scatterAdd_const scatter_S50000_S800000x1_S800000_n_0_0_1
    (broadcastInDim S50000 ![] bcast_S_S50000 (constant (F := Ideal) S_ .f32 0x00000000#32)) (dstIdx ei)
    (broadcastInDim S800000 ![] bcast_S_S800000 (constant (F := Ideal) S_ .f32 0x3F800000#32)) 1
    (fun j => by rw [ValueIdx.broadcastInDim_scalar_apply, ValueIdx.constant_apply, Ideal.ofBits_one_f32]) y
  refine ⟨max (n : ℝ) 1, le_max_right _ _, ?_⟩
  unfold cnt1
  rw [ValueIdx.maximumf_apply, hn, ValueIdx.broadcastInDim_scalar_apply, ValueIdx.constant_apply,
    Ideal.ofBits_zero_f32, ValueIdx.broadcastInDim_scalar_apply, ValueIdx.constant_apply, Ideal.ofBits_one_f32,
    zero_add, nsmul_one]
  -- the embedding of the reals is monotone, so it carries a maximum to the maximum
  have hmax : ((max (n : ℝ) 1 : ℝ) : EReal) = max ((n : ℝ) : EReal) ((1 : ℝ) : EReal) :=
    EReal.coe_strictMono.monotone.map_max
  rw [hmax, EReal.coe_natCast, EReal.coe_one]

end Cert.Sage

end
-- ==== Proof.Means.lean ====
/-
  The neighbour mean, in the two spellings. One program multiplies the aggregated sum by the reciprocal of the
  clamped count, the other divides the sum by the count. The clamped count is a real number that is at least
  one, so it is not zero, and multiplying by the reciprocal of a nonzero real number is dividing by it. With
  real features the mean is a real number: a real sum times the real reciprocal of the count.
-/
import proofs.«134507_j47201690583087_2_alg».proof.Proof.Prefix
import proofs.«134507_j47201690583087_2_alg».proof.Proof.Canon
import proofs.«134507_j47201690583087_2_alg».proof.Proof.Algebra
import proofs.«134507_j47201690583087_2_alg».proof.Proof.Finite

noncomputable section

namespace Cert.Sage

open Idealize.ShloMosaic Idealize.ShloMosaic.ValueIdx Cert.KernelIdeal

/-- The neighbour mean as a product with the reciprocal of the clamped count. -/
def meanK (X : FVec Ideal S50000x128 .f32) (ei : IVec S2x800000 32) (i : Fin 50000) (k : Fin 128) : EReal :=
  agg X ei (ix2 i k) * Ideal.div 1 (cnt1 ei (ix1 i))

/-- The neighbour mean as a quotient by the clamped count. -/
def meanR (X : FVec Ideal S50000x128 .f32) (ei : IVec S2x800000 32) (i : Fin 50000) (k : Fin 128) : EReal :=
  Ideal.div (agg X ei (ix2 i k)) (cnt1 ei (ix1 i))

/-- The two spellings agree: the count is a nonzero real number. -/
theorem meanK_eq_meanR (X : FVec Ideal S50000x128 .f32) (ei : IVec S2x800000 32) : meanK X ei = meanR X ei := by
  funext i k
  obtain ⟨r, hr, he⟩ := cnt1_real ei (ix1 i)
  have hr0 : r ≠ 0 := ne_of_gt (lt_of_lt_of_le one_pos hr)
  unfold meanK meanR
  rw [he]
  exact mul_inv_eq_div _ hr0

/-- With real features the neighbour mean is real. -/
theorem meanK_real (X : FVec Ideal S50000x128 .f32) (ei : IVec S2x800000 32) (hX : ∀ y, IsReal (X y)) :
    ∀ i k, IsReal (meanK X ei i k) := by
  intro i k
  obtain ⟨r, hr, he⟩ := cnt1_real ei (ix1 i)
  have hr0 : r ≠ 0 := ne_of_gt (lt_of_lt_of_le one_pos hr)
  unfold meanK
  rw [he, Ideal.div_coe hr0, one_mul]
  exact (agg_real X ei hX _).mul (isReal_coe _)

end Cert.Sage

end
-- ==== Proof.KerValue.lean ====
/-
  The idealized kernel's result array, index by index, as the layer of the inputs.

  The second region is handed the aggregated sums, the reciprocal counts, the features, the transposed weights,
  the bias, and — computed on the host from the first region's partial sums — the column means and the
  reciprocal deviations of the hidden layer. Reading each of these back to the inputs: both regions compute the
  same hidden layer `hidT`; the ten tiles' partial sums, one row in eight, add up to the column sums; and the
  clamped "mean of squares minus squared mean" is the variance, because every entry is a real number.
-/
import proofs.«134507_j47201690583087_2_alg».proof.Proof.KerRun
import proofs.«134507_j47201690583087_2_alg».proof.Proof.NormValue
import proofs.«134507_j47201690583087_2_alg».proof.Proof.StatsValue
import proofs.«134507_j47201690583087_2_alg».proof.Proof.HostReads2
import proofs.«134507_j47201690583087_2_alg».proof.Proof.Means
import proofs.«134507_j47201690583087_2_alg».proof.Proof.Algebra
import proofs.«134507_j47201690583087_2_alg».proof.Proof.Views

set_option maxRecDepth 16384

noncomputable section

namespace Cert.Sage
open Idealize.ShloMosaic Idealize.ShloMosaic.ValueIdx

/-- The hidden activations over transposed weight arrays and a one-row bias are those over the weights as given. -/
theorem hid_eq_hidT {mean : Fin 50000 → Fin 128 → EReal} {X : Arr 50000 128} {WlT WrT Wl Wr : Arr 128 128}
    {b' : Fin 128 → EReal} {b : Vec128} (hl : ∀ k j, WlT (ix2 k j) = Wl (ix2 j k)) (hr : ∀ k j, WrT (ix2 k j) = Wr (ix2 j k))
    (hb : ∀ j, b' j = b (ix1 j)) : hid mean X WlT WrT b' = hidT mean X Wl Wr b := by
  funext i j
  unfold hid hidT
  simp only [hl, hr, hb]
end Cert.Sage

namespace Cert.KernelIdeal.KerValue
open Cert.KernelIdeal Cert.KernelIdeal.Gen Idealize.ShloMosaic Idealize.ShloMosaic.TcCoe Idealize.SL.Sem Idealize.ShloMosaic.ValueIdx Cert.Sage
open Cert.KernelIdeal.HostReads

variable (m : (ℓ : Loc nD τ sig) → Buf (Elt Ideal) ℓ) (ρ : Dev nD → PrngReg) (c : Dev nD)

/-- What region 0 recomputes from its windows' arrays is the hidden layer of the inputs. -/
theorem hid_entry0 :
    StatsValue.H (Gen.V1 (F := Ideal) m ρ) c
      = hidT (meanK (m ((c.tc : Thread nD τ).loc main_arg0)) (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) := by
  unfold StatsValue.H
  have hs : scaled (Gen.V1 (F := Ideal) m ρ c (Pipeline.arrRef spec0 0)) (Gen.V1 (F := Ideal) m ρ c (Pipeline.arrRef spec0 1))
      = meanK (m ((c.tc : Thread nD τ).loc main_arg0)) (m ((c.tc : Thread nD τ).loc main_arg1)) := by
    funext i k
    unfold scaled meanK
    rw [v1_agg, v1_icnt]
  rw [hs, v1_x]
  exact hid_eq_hidT (v1_wl m ρ c) (v1_wr m ρ c) (v1_b m ρ c)

/-- Region 1 recomputes the same hidden layer from its own windows' arrays. -/
theorem hid_entry1 :
    hid (scaled (Gen.V3 (F := Ideal) m ρ c (Pipeline.arrRef spec1 0)) (Gen.V3 (F := Ideal) m ρ c (Pipeline.arrRef spec1 1)))
        (Gen.V3 (F := Ideal) m ρ c (Pipeline.arrRef spec1 2)) (Gen.V3 (F := Ideal) m ρ c (Pipeline.arrRef spec1 3))
        (Gen.V3 (F := Ideal) m ρ c (Pipeline.arrRef spec1 4)) (row0 (Gen.V3 (F := Ideal) m ρ c (Pipeline.arrRef spec1 5)))
      = hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) := by
  have hs : scaled (Gen.V3 (F := Ideal) m ρ c (Pipeline.arrRef spec1 0)) (Gen.V3 (F := Ideal) m ρ c (Pipeline.arrRef spec1 1))
      = meanK (m ((c.tc : Thread nD τ).loc main_arg0)) (m ((c.tc : Thread nD τ).loc main_arg1)) := by
    funext i k
    unfold scaled meanK
    rw [v3_agg, v3_icnt]
  rw [hs, v3_x]
  exact hid_eq_hidT (v3_wl m ρ c) (v3_wr m ρ c) (v3_b m ρ c)

/-- The mean region 1 is handed is the column mean of the hidden layer: the ten tiles' partial sums, each in
    the first of eight rows, add up to the column's sum. -/
theorem mu_entry1 (j : Fin 128) :
    row0 (Gen.V3 (F := Ideal) m ρ c (Pipeline.arrRef spec1 6)) j = mu (hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))) j := by
  unfold row0
  rw [v3_mu]
  unfold sum80 mu colSum
  simp only [StatsValue.arr_sum]
  rw [sum_partialRow, hid_entry0]

/-- The reciprocal deviation region 1 is handed is that of the hidden layer's column variance: on real
    entries, the clamped mean of squares minus squared mean is the mean of the squared deviations. -/
theorem istd_entry1 (hreal : ∀ i j, IsReal (hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) i j)) (j : Fin 128) :
    row0 (Gen.V3 (F := Ideal) m ρ c (Pipeline.arrRef spec1 7)) j = istd (varDev (hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)))) j := by
  unfold row0
  rw [v3_istd]
  unfold sum80 istd varDev mu colSum
  simp only [StatsValue.arr_sum, StatsValue.arr_sumsq]
  rw [sum_partialRow, sum_partialRow, hid_entry0]
  refine congrArg (fun v => Ideal.rsqrt (v + eps)) ?_
  exact var_eq (fun i => hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) i j) (fun i => hreal i j)

/-- The kernel's result array, index by index, is the layer of the inputs. -/
theorem ker_value (hreal : ∀ i j, IsReal (hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) i j)) (i : Fin 50000) (j : Fin 128) :
    W4 (F := Ideal) m ρ c (Proc.devRef .tc main_v44) (ix2 i j) = result (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i j := by
  have e0 : W4 (F := Ideal) m ρ c (Proc.devRef .tc main_v44) = (dat1 (V3 (F := Ideal) m ρ) c).arrAt 10 cfg1.N := W4_arr m ρ c 10
  rw [e0, NormValue.arr_out, hid_entry1, v3_x]
  unfold result
  have h6 : row0 (Gen.V3 (F := Ideal) m ρ c (Pipeline.arrRef spec1 6)) = mu (hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))) := funext (mu_entry1 m ρ c)
  have h7 : row0 (Gen.V3 (F := Ideal) m ρ c (Pipeline.arrRef spec1 7)) = istd (varDev (hidT (meanK (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)))) := funext (istd_entry1 m ρ c hreal)
  have h8 : row0 (Gen.V3 (F := Ideal) m ρ c (Pipeline.arrRef spec1 8)) = fun j => (m ((c.tc : Thread nD τ).loc main_arg5)) (ix1 j) := funext (v3_gamma m ρ c)
  have h9 : row0 (Gen.V3 (F := Ideal) m ρ c (Pipeline.arrRef spec1 9)) = fun j => (m ((c.tc : Thread nD τ).loc main_arg6)) (ix1 j) := funext (v3_beta m ρ c)
  rw [h6, h7, h8, h9]

end Cert.KernelIdeal.KerValue

end
-- ==== Proof.RefRun.lean ====
/-
  The reference program's run, read back by hand. @main of the reference is a straight line of host
  tensor operations once its three module-local functions (the rectifier, the variance, and the selection
  the variance calls) are substituted at their call sites over the buffers each call names: 85 operations.
  `ops` lists them in order; `main_eq` says @main is the sequence of exactly these steps; `run_main` says every
  weakly fair execution terminates with each buffer at the fold of the operations over the launch contents.
-/
import proofs.«134507_j47201690583087_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 85 operations in order, the three calls unfolded: the rectifier's three (the zero, its broadcast, the
    maximum) after the bias is added; the variance's nineteen (column sums, their mean, the centred square, the
    count less the correction, the quotient, the test that the divisor is positive, the not-a-number constant)
    followed by the selection's three (the constant at its own type, its broadcast, the select). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 ((transpose S128x128 [1, 0] · transposes_S128x128_S128x128_1_0) : (⟨S128x128, .f32⟩ : BufTy).Contents (Elt F) → (⟨S128x128, .f32⟩ : BufTy).Contents (Elt F)),
    binary main_arg0 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of main_v30 : TRef sig ⟨S50000x128, .f32⟩) main_call0.v0 main_call0.v1 maximumf,
    nullary main_cst_4 (constant S_ .f32 0x00000000#32),
    binary main_v31 main_cst_4 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call1.cst (constant S_ .f32 0x00000000#32),
    TRef.binary (TRef.of main_v31 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (TRef.of main_v31 : TRef sig ⟨S50000x128, .f32⟩) main_call1.v4 main_call1.v5 subf,
    TRef.binary main_call1.v5 main_call1.v5 main_call1.v6 mulf,
    TRef.unary (TRef.of main_c_6 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v34 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v31 main_v37 main_v38 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v38 main_v43 main_v44 (mulf : (⟨S50000x128, .f32⟩ : BufTy).Contents (Elt F) → (⟨S50000x128, .f32⟩ : BufTy).Contents (Elt F) → (⟨S50000x128, .f32⟩ : BufTy).Contents (Elt F)),
    unary main_arg5 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (mulf : (⟨S50000x128, .f32⟩ : BufTy).Contents (Elt F) → (⟨S50000x128, .f32⟩ : BufTy).Contents (Elt F) → (⟨S50000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    binary main_arg0 main_v50 main_v51 (addf : (⟨S50000x128, .f32⟩ : BufTy).Contents (Elt F) → (⟨S50000x128, .f32⟩ : BufTy).Contents (Elt F) → (⟨S50000x128, .f32⟩ : BufTy).Contents (Elt F)) ]

-- eighty-five binds re-associated: the rewrite under the chain recurses once per statement
set_option maxRecDepth 4096 in
set_option maxHeartbeats 1000000 in
/-- @main is that straight line: its two windows run in order, the functions' definitions unfolded at their calls,
    both sides are one chain of steps once sequencing is re-associated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefRead.lean ====
/-
  The reference's run read at its named stages. Each statement is an equation between buffer contents after
  the 85 operations have run from arbitrary contents `V`: the seven arguments keep their contents; the aggregated
  neighbour sum, the clamped in-degree, the rectified affine layer `h`, its column mean, its column variance and
  the output are each one composed term of the stages before them. `h` is read five times downstream (the mean, the
  variance twice over through the centred square, the centring, and indirectly the output), so every later stage is
  stated over `h`'s buffer contents rather than over `h`'s own term.
-/
import proofs.«134507_j47201690583087_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The index tables

The edge list is a 2 × 800000 integer table: row 0 the source node of each edge, row 1 its destination. -/

/-- Row 0 of the edge table as a vector: the source node of each edge, as written. -/
def srcRow (E : IVec S2x800000 32) : IVec S800000 32 :=
  (shapeCast S800000 (extractStridedSlice S1x800000 ![0, 0] E slices_S2x800000_S1x800000_0_0) shapeCasts_S1x800000_S800000)

/-- Row 1 of the edge table as a vector: the destination node of each edge. -/
def dstRow (E : IVec S2x800000 32) : IVec S800000 32 :=
  (shapeCast S800000 (extractStridedSlice S1x800000 ![1, 0] E slices_S2x800000_S1x800000_1_0) shapeCasts_S1x800000_S800000)

/-- The gather's start indices: each source node, a negative one counted from the end (50000 added), as an
    800000 × 1 table. -/
def srcIdx (E : IVec S2x800000 32) : IVec S800000x1 32 :=
  (broadcastInDim S800000x1 ![0] bcast_S800000_S800000x1_0
            (select (cmpi .slt (shapeCast S800000 (extractStridedSlice S1x800000 ![0, 0] E slices_S2x800000_S1x800000_0_0) shapeCasts_S1x800000_S800000) (broadcastInDim S800000 ![] bcast_S_S800000 (constantI S_ 32 0#32)))
              (addi (shapeCast S800000 (extractStridedSlice S1x800000 ![0, 0] E slices_S2x800000_S1x800000_0_0) shapeCasts_S1x800000_S800000) (broadcastInDim S800000 ![] bcast_S_S800000 (constantI S_ 32 50000#32)))
              (shapeCast S800000 (extractStridedSlice S1x800000 ![0, 0] E slices_S2x800000_S1x800000_0_0) shapeCasts_S1x800000_S800000)))

/-- The scatters' indices: each destination node as an 800000 × 1 table. -/
def dstIdx (E : IVec S2x800000 32) : IVec S800000x1 32 :=
  (broadcastInDim S800000x1 ![0] bcast_S800000_S800000x1_0 (shapeCast S800000 (extractStridedSlice S1x800000 ![1, 0] E slices_S2x800000_S1x800000_1_0) shapeCasts_S1x800000_S800000))

theorem srcRow_def (E : IVec S2x800000 32) : srcRow E = (shapeCast S800000 (extractStridedSlice S1x800000 ![0, 0] E slices_S2x800000_S1x800000_0_0) shapeCasts_S1x800000_S800000) := rfl
theorem dstRow_def (E : IVec S2x800000 32) : dstRow E = (shapeCast S800000 (extractStridedSlice S1x800000 ![1, 0] E slices_S2x800000_S1x800000_1_0) shapeCasts_S1x800000_S800000) := rfl
theorem srcIdx_def (E : IVec S2x800000 32) : srcIdx E = broadcastInDim S800000x1 ![0] bcast_S800000_S800000x1_0
    (select (cmpi .slt (srcRow E) (broadcastInDim S800000 ![] bcast_S_S800000 (constantI S_ 32 0#32)))
      (addi (srcRow E) (broadcastInDim S800000 ![] bcast_S_S800000 (constantI S_ 32 50000#32))) (srcRow E)) := rfl
theorem dstIdx_def (E : IVec S2x800000 32) : dstIdx E = broadcastInDim S800000x1 ![0] bcast_S800000_S800000x1_0 (dstRow E) := rfl

/-! ## The column variance as a function of the layer

What the variance function and the selection it calls compute from the layer `h`: the column sums over the 50000 rows
divided by 50000 (the mean, as a 1 × 128 row), `h` less that row (centred), its square summed over the rows and divided
by 50000 − 0 (the count less a correction of zero, converted from the integer 0), selected against a not-a-number
constant by whether that divisor is positive. -/

/-- The column mean of `h` as a 1 × 128 row. -/
def colMean (h : FVec F S50000x128 .f32) : FVec F S1x128 .f32 :=
  (Host.divf (broadcastInDim S1x128 ![1] bcast_S128_S1x128_1 (Host.reduceAdd h (constant (F := F) S_ .f32 0x00000000#32) reducesTo_S50000x128_S128_d0 h_S_)) (broadcastInDim S1x128 ![] bcast_S_S1x128 (constant (F := F) S_ .f32 0x47435000#32)))

/-- `h` less its column mean. -/
def centred (h : FVec F S50000x128 .f32) : FVec F S50000x128 .f32 :=
  subf h (broadcastInDim S50000x128 ![0, 1] bcast_S1x128_S50000x128_0_1 (colMean h))

/-- The divisor of the variance: 50000 less the correction 0 converted to a float. -/
def ddof : FVec F S_ .f32 :=
  (subf (constant (F := F) S_ .f32 0x47435000#32) (sitofp .f32 (constantI S_ 32 0#32)))

/-- The column variance of `h` as the operations give it. -/
def varOf (h : FVec F S50000x128 .f32) : FVec F S128 .f32 :=
  select (broadcastInDim S128 ![] bcast_S_S128 (cmpf .ogt (ddof (F := F)) (constant (F := F) S_ .f32 0x00000000#32)))
    (Host.divf (Host.reduceAdd (mulf (centred h) (centred h)) (constant (F := F) S_ .f32 0x00000000#32) reducesTo_S50000x128_S128_d0 h_S_) (broadcastInDim S128 ![] bcast_S_S128 (ddof (F := F))))
    (broadcastInDim S128 ![] bcast_S_S128 (constant (F := F) S_ .f32 0x7FC00000#32))

theorem colMean_def (h : FVec F S50000x128 .f32) : colMean h = (Host.divf (broadcastInDim S1x128 ![1] bcast_S128_S1x128_1 (Host.reduceAdd h (constant (F := F) S_ .f32 0x00000000#32) reducesTo_S50000x128_S128_d0 h_S_)) (broadcastInDim S1x128 ![] bcast_S_S1x128 (constant (F := F) S_ .f32 0x47435000#32))) := rfl
theorem centred_def (h : FVec F S50000x128 .f32) : centred h = subf h (broadcastInDim S50000x128 ![0, 1] bcast_S1x128_S50000x128_0_1 (colMean h)) := rfl
theorem ddof_def : (ddof : FVec F S_ .f32) = (subf (constant (F := F) S_ .f32 0x47435000#32) (sitofp .f32 (constantI S_ 32 0#32))) := rfl
theorem varOf_def (h : FVec F S50000x128 .f32) : varOf h =
    select (broadcastInDim S128 ![] bcast_S_S128 (cmpf .ogt (ddof (F := F)) (constant (F := F) S_ .f32 0x00000000#32)))
      (Host.divf (Host.reduceAdd (mulf (centred h) (centred h)) (constant (F := F) S_ .f32 0x00000000#32) reducesTo_S50000x128_S128_d0 h_S_) (broadcastInDim S128 ![] bcast_S_S128 (ddof (F := F))))
      (broadcastInDim S128 ![] bcast_S_S128 (constant (F := F) S_ .f32 0x7FC00000#32)) := rfl

/-! ## (a) the arguments keep their contents -/

attribute [local irreducible] Host.gather Host.scatterAdd Host.reduceAdd in
set_option maxRecDepth 8192 in
set_option maxHeartbeats 2000000 in
theorem arg0_eq (V : Valuation τ sig (Elt F)) : after ops V (main_arg0 : DevRef τ sig) = V (main_arg0 : DevRef τ sig) := by
  after_results_simp <;> rfl

attribute [local irreducible] Host.gather Host.scatterAdd Host.reduceAdd in
set_option maxRecDepth 8192 in
set_option maxHeartbeats 2000000 in
theorem arg1_eq (V : Valuation τ sig (Elt F)) : after ops V (main_arg1 : DevRef τ sig) = V (main_arg1 : DevRef τ sig) := by
  after_results_simp <;> rfl

attribute [local irreducible] Host.gather Host.scatterAdd Host.reduceAdd in
set_option maxRecDepth 8192 in
set_option maxHeartbeats 2000000 in
theorem arg2_eq (V : Valuation τ sig (Elt F)) : after ops V (main_arg2 : DevRef τ sig) = V (main_arg2 : DevRef τ sig) := by
  after_results_simp <;> rfl

attribute [local irreducible] Host.gather Host.scatterAdd Host.reduceAdd in
set_option maxRecDepth 8192 in
set_option maxHeartbeats 2000000 in
theorem arg3_eq (V : Valuation τ sig (Elt F)) : after ops V (main_arg3 : DevRef τ sig) = V (main_arg3 : DevRef τ sig) := by
  after_results_simp <;> rfl

attribute [local irreducible] Host.gather Host.scatterAdd Host.reduceAdd in
set_option maxRecDepth 8192 in
set_option maxHeartbeats 2000000 in
theorem arg4_eq (V : Valuation τ sig (Elt F)) : after ops V (main_arg4 : DevRef τ sig) = V (main_arg4 : DevRef τ sig) := by
  after_results_simp <;> rfl

attribute [local irreducible] Host.gather Host.scatterAdd Host.reduceAdd in
set_option maxRecDepth 8192 in
set_option maxHeartbeats 2000000 in
theorem arg5_eq (V : Valuation τ sig (Elt F)) : after ops V (main_arg5 : DevRef τ sig) = V (main_arg5 : DevRef τ sig) := by
  after_results_simp <;> rfl

attribute [local irreducible] Host.gather Host.scatterAdd Host.reduceAdd in
set_option maxRecDepth 8192 in
set_option maxHeartbeats 2000000 in
theorem arg6_eq (V : Valuation τ sig (Elt F)) : after ops V (main_arg6 : DevRef τ sig) = V (main_arg6 : DevRef τ sig) := by
  after_results_simp <;> rfl

/-! ## (b) the aggregated neighbour sum -/

attribute [local irreducible] Host.gather Host.scatterAdd Host.reduceAdd in
set_option maxRecDepth 8192 in
set_option maxHeartbeats 2000000 in
/-- Every edge adds its source node's row to its destination node's row of a zero table. -/
theorem agg_eq (V : Valuation τ sig (Elt F)) :
    after ops V (main_v13 : DevRef τ sig)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (shapeCast S800000 (extractStridedSlice S1x800000 ![1, 0] (V (main_arg1 : DevRef τ sig)) slices_S2x800000_S1x800000_1_0) shapeCasts_S1x800000_S800000))
          (Host.gather gather_S50000x128_S800000x1_S800000x128_1_0_n_n_0_1_1128 (V (main_arg0 : DevRef τ sig))
            (broadcastInDim S800000x1 ![0] bcast_S800000_S800000x1_0
            (select (cmpi .slt (shapeCast S800000 (extractStridedSlice S1x800000 ![0, 0] (V (main_arg1 : DevRef τ sig)) slices_S2x800000_S1x800000_0_0) shapeCasts_S1x800000_S800000) (broadcastInDim S800000 ![] bcast_S_S800000 (constantI S_ 32 0#32)))
              (addi (shapeCast S800000 (extractStridedSlice S1x800000 ![0, 0] (V (main_arg1 : DevRef τ sig)) slices_S2x800000_S1x800000_0_0) shapeCasts_S1x800000_S800000) (broadcastInDim S800000 ![] bcast_S_S800000 (constantI S_ 32 50000#32)))
              (shapeCast S800000 (extractStridedSlice S1x800000 ![0, 0] (V (main_arg1 : DevRef τ sig)) slices_S2x800000_S1x800000_0_0) shapeCasts_S1x800000_S800000)))) := by
  after_results_simp <;> rfl

/-- The same over the named index tables. -/
theorem agg_eq' (V : Valuation τ sig (Elt F)) :
    after ops V (main_v13 : DevRef τ sig)
      = Host.scatterAdd (F := F) scatter_S50000x128_S800000x1_S800000x128_1_0_0_1
          (broadcastInDim S50000x128 ![] bcast_S_S50000x128 (constant (F := F) S_ .f32 0x00000000#32))
          (dstIdx (V (main_arg1 : DevRef τ sig)))
          (Host.gather gather_S50000x128_S800000x1_S800000x128_1_0_n_n_0_1_1128 (V (main_arg0 : DevRef τ sig)) (srcIdx (V (main_arg1 : DevRef τ sig)))) := agg_eq V

/-! ## (c) the clamped in-degree -/

attribute [local irreducible] Host.gather Host.scatterAdd Host.reduceAdd in
set_option maxRecDepth 8192 in
set_option maxHeartbeats 2000000 in
/-- Every edge adds one at its destination node; the count is then at least one. -/
theorem cnt_eq (V : Valuation τ sig (Elt F)) :
    after ops V (main_v19 : DevRef τ sig)
      = maximumf
          (Host.scatterAdd (F := F) scatter_S50000_S800000x1_S800000_n_0_0_1
            (broadcastInDim S50000 ![] bcast_S_S50000 (constant (F := F) S_ .f32 0x00000000#32))
            (broadcastInDim S800000x1 ![0] bcast_S800000_S800000x1_0 (shapeCast S800000 (extractStridedSlice S1x800000 ![1, 0] (V (main_arg1 : DevRef τ sig)) slices_S2x800000_S1x800000_1_0) shapeCasts_S1x800000_S800000))
            (broadcastInDim S800000 ![] bcast_S_S800000 (constant (F := F) S_ .f32 0x3F800000#32)))
          (broadcastInDim S50000 ![] bcast_S_S50000 (constant (F := F) S_ .f32 0x3F800000#32)) := by
  after_results_simp <;> rfl

theorem cnt_eq' (V : Valuation τ sig (Elt F)) :
    after ops V (main_v19 : DevRef τ sig)
      = maximumf
          (Host.scatterAdd (F := F) scatter_S50000_S800000x1_S800000_n_0_0_1
            (broadcastInDim S50000 ![] bcast_S_S50000 (constant (F := F) S_ .f32 0x00000000#32))
            (dstIdx (V (main_arg1 : DevRef τ sig)))
            (broadcastInDim S800000 ![] bcast_S_S800000 (constant (F := F) S_ .f32 0x3F800000#32)))
          (broadcastInDim S50000 ![] bcast_S_S50000 (constant (F := F) S_ .f32 0x3F800000#32)) := cnt_eq V

/-! ## (d) the layer -/

attribute [local irreducible] Host.gather Host.scatterAdd Host.reduceAdd in
set_option maxRecDepth 8192 in
set_option maxHeartbeats 2000000 in
/-- The mean of the neighbours through one weight matrix, the node itself through the other, the bias, rectified. -/
theorem h_eq (V : Valuation τ sig (Elt F)) :
    after ops V (main_v31 : DevRef τ sig)
      = maximumf
          (addf
            (addf
              (Host.dotGeneral dot_S50000x128_S128x128_S50000x128_1_0_0_1_n_n none
                (Host.divf (after ops V (main_v13 : DevRef τ sig))
                  (broadcastInDim S50000x128 ![0, 1] bcast_S50000x1_S50000x128_0_1
                    (broadcastInDim S50000x1 ![0] bcast_S50000_S50000x1_0 (after ops V (main_v19 : DevRef τ sig)))))
                (transpose S128x128 [1, 0] (V (main_arg2 : DevRef τ sig)) transposes_S128x128_S128x128_1_0))
              (Host.dotGeneral dot_S50000x128_S128x128_S50000x128_1_0_0_1_n_n none (V (main_arg0 : DevRef τ sig))
                (transpose S128x128 [1, 0] (V (main_arg3 : DevRef τ sig)) transposes_S128x128_S128x128_1_0)))
            (broadcastInDim S50000x128 ![0, 1] bcast_S1x128_S50000x128_0_1 (broadcastInDim S1x128 ![1] bcast_S128_S1x128_1 (V (main_arg4 : DevRef τ sig)))))
          (broadcastInDim S50000x128 ![] bcast_S_S50000x128 (constant (F := F) S_ .f32 0x00000000#32)) := by
  after_results_simp <;> rfl

/-! ## (e) the column mean -/

attribute [local irreducible] Host.gather Host.scatterAdd Host.reduceAdd in
set_option maxRecDepth 8192 in
set_option maxHeartbeats 2000000 in
theorem mu_eq (V : Valuation τ sig (Elt F)) :
    after ops V (main_v34 : DevRef τ sig)
      = Host.divf (Host.reduceAdd (after ops V (main_v31 : DevRef τ sig)) (constant (F := F) S_ .f32 0x00000000#32) reducesTo_S50000x128_S128_d0 h_S_)
          (broadcastInDim S128 ![] bcast_S_S128 (constant (F := F) S_ .f32 0x47435000#32)) := by
  after_results_simp <;> rfl

/-! ## (f) the column variance -/

attribute [local irreducible] Host.gather Host.scatterAdd Host.reduceAdd in
set_option maxRecDepth 8192 in
set_option maxHeartbeats 2000000 in
theorem var_eq (V : Valuation τ sig (Elt F)) :
    after ops V (main_v35 : DevRef τ sig) = varOf (after ops V (main_v31 : DevRef τ sig)) := by
  after_results_simp <;> rfl

/-- The same written out down to the layer's buffer. -/
theorem var_eq' (V : Valuation τ sig (Elt F)) :
    after ops V (main_v35 : DevRef τ sig)
      = (select (broadcastInDim S128 ![] bcast_S_S128 (cmpf .ogt (subf (constant (F := F) S_ .f32 0x47435000#32) (sitofp .f32 (constantI S_ 32 0#32))) (constant (F := F) S_ .f32 0x00000000#32)))
        (Host.divf (Host.reduceAdd (mulf (subf (after ops V (main_v31 : DevRef τ sig)) (broadcastInDim S50000x128 ![0, 1] bcast_S1x128_S50000x128_0_1 (Host.divf (broadcastInDim S1x128 ![1] bcast_S128_S1x128_1 (Host.reduceAdd (after ops V (main_v31 : DevRef τ sig)) (constant (F := F) S_ .f32 0x00000000#32) reducesTo_S50000x128_S128_d0 h_S_)) (broadcastInDim S1x128 ![] bcast_S_S1x128 (constant (F := F) S_ .f32 0x47435000#32))))) (subf (after ops V (main_v31 : DevRef τ sig)) (broadcastInDim S50000x128 ![0, 1] bcast_S1x128_S50000x128_0_1 (Host.divf (broadcastInDim S1x128 ![1] bcast_S128_S1x128_1 (Host.reduceAdd (after ops V (main_v31 : DevRef τ sig)) (constant (F := F) S_ .f32 0x00000000#32) reducesTo_S50000x128_S128_d0 h_S_)) (broadcastInDim S1x128 ![] bcast_S_S1x128 (constant (F := F) S_ .f32 0x47435000#32)))))) (constant (F := F) S_ .f32 0x00000000#32) reducesTo_S50000x128_S128_d0 h_S_) (broadcastInDim S128 ![] bcast_S_S128 (subf (constant (F := F) S_ .f32 0x47435000#32) (sitofp .f32 (constantI S_ 32 0#32)))))
        (broadcastInDim S128 ![] bcast_S_S128 (constant (F := F) S_ .f32 0x7FC00000#32))) := var_eq V

/-! ## (g) the output -/

attribute [local irreducible] Host.gather Host.scatterAdd Host.reduceAdd in
set_option maxRecDepth 8192 in
set_option maxHeartbeats 2000000 in
/-- The layer normalized by column (mean, variance plus a small constant), scaled and shifted by column, added to the input. -/
theorem out_eq (V : Valuation τ sig (Elt F)) :
    after ops V (main_v51 : DevRef τ sig)
      = addf (V (main_arg0 : DevRef τ sig))
          (addf
            (mulf
              (mulf
                (subf (after ops V (main_v31 : DevRef τ sig)) (broadcastInDim S50000x128 ![0, 1] bcast_S1x128_S50000x128_0_1 (broadcastInDim S1x128 ![1] bcast_S128_S1x128_1 (after ops V (main_v34 : DevRef τ sig)))))
                (broadcastInDim S50000x128 ![0, 1] bcast_S1x128_S50000x128_0_1 (broadcastInDim S1x128 ![1] bcast_S128_S1x128_1 (Host.rsqrt (addf (after ops V (main_v35 : DevRef τ sig)) (broadcastInDim S128 ![] bcast_S_S128 (constant (F := F) S_ .f32 0x3727C5AC#32)))))))
              (broadcastInDim S50000x128 ![0, 1] bcast_S1x128_S50000x128_0_1 (broadcastInDim S1x128 ![1] bcast_S128_S1x128_1 (V (main_arg5 : DevRef τ sig)))))
            (broadcastInDim S50000x128 ![0, 1] bcast_S1x128_S50000x128_0_1 (broadcastInDim S1x128 ![1] bcast_S128_S1x128_1 (V (main_arg6 : DevRef τ sig))))) := by
  after_results_simp <;> rfl

end Cert.ReferenceIdeal.HandRun

end
-- ==== Proof.RefValue.lean ====
/-
  The reference's result read at an index: the value of its output buffer at row `i`, column `j` is the layer's
  `result` there, taken over the neighbour mean — the aggregated sum at `(i, k)` divided by the clamped count at `i`.
  The stages are read one at a time at an index: the layer `h` (two products with transposed weights, the bias, the
  clamp at zero), its column mean, its column variance (mean of squared deviations; the divisor `50000 − 0` is
  `50000` and positive, so the selection keeps the quotient), and the normalization added to the input.
-/
import proofs.«134507_j47201690583087_2_alg».proof.Proof.RefRead
import proofs.«134507_j47201690583087_2_alg».proof.Proof.Canon
import Idealize.ShloMosaic.Lib.ValueLayout
import Idealize.ShloMosaic.Lib.IdealHost

noncomputable section

namespace Cert.ReferenceIdeal.RefValue

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open scoped BigOperators

/-! ## The re-indexings at an index -/

variable {α : Type}

/-- A 128-vector copied into every row reads, at `(i, j)`, its entry `j`. -/
theorem rowB_apply (x : S128.Idx → α) (i : Fin 50000) (j : Fin 128) :
    broadcastInDim S50000x128 ![0, 1] bcast_S1x128_S50000x128_0_1 (broadcastInDim S1x128 ![1] bcast_S128_S1x128_1 x) (ix2 i j)
      = x (ix1 j) := by
  refine (broadcastInDim_apply _ _ _ (ix2 i j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

/-- A 50000-vector copied into every column reads, at `(i, j)`, its entry `i`. -/
theorem colB_apply (x : S50000.Idx → α) (i : Fin 50000) (j : Fin 128) :
    broadcastInDim S50000x128 ![0, 1] bcast_S50000x1_S50000x128_0_1 (broadcastInDim S50000x1 ![0] bcast_S50000_S50000x1_0 x) (ix2 i j)
      = x (ix1 i) := by
  refine (broadcastInDim_apply _ _ _ (ix2 i j) (ix2 i (0 : Fin 1)) fun a => ?_).trans
    (broadcastInDim_apply _ _ _ (ix2 i (0 : Fin 1)) (ix1 i) fun a => ?_)
  · match a with
    | ⟨0, _⟩ => rfl
    | ⟨1, _⟩ => rfl
  · match a with
    | ⟨0, _⟩ => rfl

/-- A 128-vector as one row reads, at `(0, j)`, its entry `j`. -/
theorem row1_apply (x : S128.Idx → α) (j : Fin 128) :
    broadcastInDim S1x128 ![1] bcast_S128_S1x128_1 x (ix2 (0 : Fin 1) j) = x (ix1 j) := by
  refine broadcastInDim_apply _ _ _ (ix2 (0 : Fin 1) j) (ix1 j) fun a => ?_
  match a with
  | ⟨0, _⟩ => rfl

/-- One row copied into every row reads, at `(i, j)`, the row's entry `j`. -/
theorem rows_apply (x : S1x128.Idx → α) (i : Fin 50000) (j : Fin 128) :
    broadcastInDim S50000x128 ![0, 1] bcast_S1x128_S50000x128_0_1 x (ix2 i j) = x (ix2 (0 : Fin 1) j) := by
  refine broadcastInDim_apply _ _ _ (ix2 i j) (ix2 (0 : Fin 1) j) fun a => ?_
  match a with
  | ⟨0, _⟩ => rfl
  | ⟨1, _⟩ => rfl

/-! ## The matrix product at an index -/

/-- The product's dimension numbers: rows of the left operand against columns of the right, one contracted axis. -/
abbrev DD : DotDims S50000x128 S128x128 S50000x128 := dot_S50000x128_S128x128_S50000x128_1_0_0_1_n_n

theorem lhs_0 (y : S50000x128.Idx) (q : DD.contr.Idx) : (DD.lhsIdx y q 0).val = (y 0).val := by
  unfold DotDims.lhsIdx
  rw [dif_neg (show ¬(0 : Fin S50000x128.rank) ∈ DD.lhsBatch by decide),
    dif_pos (show (0 : Fin S50000x128.rank) ∈ DD.lhsNonContracting by decide)]
  rfl

theorem lhs_1 (y : S50000x128.Idx) (q : DD.contr.Idx) : (DD.lhsIdx y q 1).val = (q ⟨0, by decide⟩).val :=
  DD.lhsIdx_val_of_single rfl y q

theorem rhs_0 (y : S50000x128.Idx) (q : DD.contr.Idx) : (DD.rhsIdx y q 0).val = (q ⟨0, by decide⟩).val :=
  DD.rhsIdx_val_of_single rfl y q

theorem rhs_1 (y : S50000x128.Idx) (q : DD.contr.Idx) : (DD.rhsIdx y q 1).val = (y 1).val := by
  unfold DotDims.rhsIdx
  rw [dif_neg (show ¬(1 : Fin S128x128.rank) ∈ DD.rhsBatch by decide),
    dif_pos (show (1 : Fin S128x128.rank) ∈ DD.rhsNonContracting by decide)]
  rfl

/-- At the ideal values the host's matrix product at `(i, j)` is the sum over `k` of left `(i, k)` times right `(k, j)`. -/
theorem dot_apply (l : FVec Ideal S50000x128 .f32) (r : FVec Ideal S128x128 .f32) (i : Fin 50000) (j : Fin 128) :
    Host.dotGeneral dot_S50000x128_S128x128_S50000x128_1_0_0_1_n_n none l r (ix2 i j) = ∑ k : Fin 128, l (ix2 i k) * r (ix2 k j) := by
  simp only [Host.dotGeneral]
  rw [Ideal.dotGeneral_apply, ← Equiv.sum_comp (contrEquiv1 DD 128 rfl rfl).symm]
  refine Finset.sum_congr rfl fun k _ => ?_
  have hk := contrEquiv1_symm_val DD 128 rfl rfl k
  have el : DD.lhsIdx (ix2 i j) ((contrEquiv1 DD 128 rfl rfl).symm k) = ix2 i k := funext fun a => Fin.ext (by
    match a with
    | ⟨0, _⟩ => exact lhs_0 _ _
    | ⟨1, _⟩ => exact (lhs_1 _ _).trans hk)
  have er : DD.rhsIdx (ix2 i j) ((contrEquiv1 DD 128 rfl rfl).symm k) = ix2 k j := funext fun a => Fin.ext (by
    match a with
    | ⟨0, _⟩ => exact (rhs_0 _ _).trans hk
    | ⟨1, _⟩ => exact rhs_1 _ _)
  rw [el, er]

/-! ## The column sum at an index -/

/-- At the ideal values the host's sum over the rows from the zero literal is, at column `j`, zero plus the sum of the column. -/
theorem colsum_apply (x : FVec Ideal S50000x128 .f32) (j : Fin 128) :
    Host.reduceAdd x (constant (F := Ideal) S_ .f32 0x00000000#32) reducesTo_S50000x128_S128_d0 h_S_ (ix1 j)
      = 0 + ∑ i : Fin 50000, x (ix2 i j) := by
  rw [hostReduceAdd_apply, Ideal.hostReduceAdd_single reducesTo_S50000x128_S128_d0 (by decide), constant_apply,
    Ideal.ofBits_zero_f32]
  refine congrArg (0 + ·) (Finset.sum_congr rfl fun k _ => ?_)
  exact congrArg x (funext fun a => Fin.ext (by match a with | ⟨0, _⟩ => rfl | ⟨1, _⟩ => rfl))

/-! ## The literals -/

/-- The row count literal is the real number 50000. -/
theorem nrows_eq : Cert.Sage.nrows = ((50000 : ℝ) : EReal) := by
  unfold Cert.Sage.nrows
  simp [Ideal.ofBits, Ideal.ieee, -EReal.coe_mul]
  norm_num

theorem nrows_pos : (0 : EReal) < Cert.Sage.nrows := by
  rw [nrows_eq]
  exact_mod_cast (by norm_num : (0 : ℝ) < 50000)

/-- The variance's divisor: the row count less the correction zero (the integer 0 converted) is the row count. -/
theorem ddof_ix0 : (ddof (F := Ideal)) ix0 = Cert.Sage.nrows := by
  show Ideal.ofBits .f32 0x47435000#32 - ((((0#32 : BitVec 32).toInt : ℤ) : ℝ) : EReal) = Cert.Sage.nrows
  rw [show ((0#32 : BitVec 32).toInt) = 0 from rfl, Int.cast_zero, EReal.coe_zero, sub_zero]
  rfl

/-! ## The layer at an index -/

/-- The rectified affine layer read at `(i, j)`, over any aggregated sums `A`, counts `C`, features `X`, weights and bias. -/
theorem hid_read (A X : FVec Ideal S50000x128 .f32) (C : FVec Ideal S50000 .f32) (Wl Wr : FVec Ideal S128x128 .f32)
    (b : FVec Ideal S128 .f32) (i : Fin 50000) (j : Fin 128) :
    maximumf
        (addf
          (addf
            (Host.dotGeneral dot_S50000x128_S128x128_S50000x128_1_0_0_1_n_n none (Host.divf A (broadcastInDim S50000x128 ![0, 1] bcast_S50000x1_S50000x128_0_1 (broadcastInDim S50000x1 ![0] bcast_S50000_S50000x1_0 C))) (transpose S128x128 [1, 0] Wl transposes_S128x128_S128x128_1_0))
            (Host.dotGeneral dot_S50000x128_S128x128_S50000x128_1_0_0_1_n_n none X (transpose S128x128 [1, 0] Wr transposes_S128x128_S128x128_1_0)))
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)) (ix2 i j)
      = Cert.Sage.hidT (fun i k => Ideal.div (A (ix2 i k)) (C (ix1 i))) X Wl Wr b i j := by
  rw [maximumf_apply, addf_apply, addf_apply, dot_apply, dot_apply, rowB_apply, broadcastInDim_scalar_apply, constant_apply,
    Ideal.ofBits_zero_f32]
  have e1 : ∀ k : Fin 128, Host.divf A (broadcastInDim S50000x128 ![0, 1] bcast_S50000x1_S50000x128_0_1 (broadcastInDim S50000x1 ![0] bcast_S50000_S50000x1_0 C)) (ix2 i k) * (transpose S128x128 [1, 0] Wl transposes_S128x128_S128x128_1_0) (ix2 k j)
      = Ideal.div (A (ix2 i k)) (C (ix1 i)) * Wl (ix2 j k) := fun k => by
    rw [hostDivf_apply, colB_apply, transpose_ix2_apply]
  have e2 : ∀ k : Fin 128, X (ix2 i k) * (transpose S128x128 [1, 0] Wr transposes_S128x128_S128x128_1_0) (ix2 k j) = X (ix2 i k) * Wr (ix2 j k) := fun k => by
    rw [transpose_ix2_apply]
  rw [Finset.sum_congr rfl fun k _ => e1 k, Finset.sum_congr rfl fun k _ => e2 k]
  rfl

/-! ## The column mean at an index -/

theorem mu_read (H : FVec Ideal S50000x128 .f32) (j : Fin 128) :
    Host.divf (Host.reduceAdd H (constant (F := Ideal) S_ .f32 0x00000000#32) reducesTo_S50000x128_S128_d0 h_S_) (broadcastInDim S128 ![] bcast_S_S128 (constant (F := Ideal) S_ .f32 0x47435000#32)) (ix1 j)
      = Cert.Sage.mu (fun i j => H (ix2 i j)) j := by
  rw [hostDivf_apply, colsum_apply, broadcastInDim_scalar_apply, constant_apply]
  rfl

/-- The column mean as the variance function spells it: a one-row matrix. -/
theorem colMean_read (H : FVec Ideal S50000x128 .f32) (j : Fin 128) :
    colMean H (ix2 (0 : Fin 1) j) = Cert.Sage.mu (fun i j => H (ix2 i j)) j := by
  rw [colMean_def, hostDivf_apply, row1_apply, colsum_apply, broadcastInDim_scalar_apply, constant_apply]
  rfl

theorem centred_read (H : FVec Ideal S50000x128 .f32) (i : Fin 50000) (j : Fin 128) :
    centred H (ix2 i j) = H (ix2 i j) - Cert.Sage.mu (fun i j => H (ix2 i j)) j := by
  rw [centred_def, subf_apply, rows_apply, colMean_read]

/-! ## The column variance at an index -/

theorem var_read (H : FVec Ideal S50000x128 .f32) (j : Fin 128) :
    varOf H (ix1 j) = Cert.Sage.varDev (fun i j => H (ix2 i j)) j := by
  rw [varOf_def, select_apply, broadcastInDim_scalar_apply, cmpf_apply, ddof_ix0, constant_apply, Ideal.ofBits_zero_f32,
    Ideal.cmpf_def]
  have hc : Ideal.cmp .ogt Cert.Sage.nrows 0 = 1#1 := by
    unfold Ideal.cmp
    simp only [nrows_pos, decide_true]
    rfl
  rw [hc, select_one, hostDivf_apply, colsum_apply, broadcastInDim_scalar_apply, ddof_ix0]
  unfold Cert.Sage.varDev
  refine congrArg (fun s => Ideal.div (0 + s) Cert.Sage.nrows) (Finset.sum_congr rfl fun i _ => ?_)
  rw [mulf_apply, centred_read]

/-! ## The output at an index -/

theorem out_read (X H : FVec Ideal S50000x128 .f32) (M W g be : FVec Ideal S128 .f32) (i : Fin 50000) (j : Fin 128) :
    addf X
        (addf
          (mulf
            (mulf (subf H (broadcastInDim S50000x128 ![0, 1] bcast_S1x128_S50000x128_0_1 (broadcastInDim S1x128 ![1] bcast_S128_S1x128_1 M)))
              (broadcastInDim S50000x128 ![0, 1] bcast_S1x128_S50000x128_0_1 (broadcastInDim S1x128 ![1] bcast_S128_S1x128_1 (Host.rsqrt (addf W (broadcastInDim S128 ![] bcast_S_S128 (constant (F := Ideal) S_ .f32 0x3727C5AC#32)))))))
            (broadcastInDim S50000x128 ![0, 1] bcast_S1x128_S50000x128_0_1 (broadcastInDim S1x128 ![1] bcast_S128_S1x128_1 g)))
          (broadcastInDim S50000x128 ![0, 1] bcast_S1x128_S50000x128_0_1 (broadcastInDim S1x128 ![1] bcast_S128_S1x128_1 be))) (ix2 i j)
      = Cert.Sage.out X (fun i j => H (ix2 i j)) (fun j => M (ix1 j)) (Cert.Sage.istd fun j => W (ix1 j))
          (fun j => g (ix1 j)) (fun j => be (ix1 j)) i j := by
  rw [addf_apply, addf_apply, mulf_apply, mulf_apply, subf_apply, rowB_apply, rowB_apply, rowB_apply, rowB_apply]
  rfl

/-! ## The run's buffers at an index -/

section Run

variable (V : Valuation τ sig (Elt Ideal))

/-- The layer's buffer at `(i, j)` is the hidden activation over the neighbour mean the reference forms: the aggregated
    sum divided by the clamped count. -/
theorem h_apply (i : Fin 50000) (j : Fin 128) :
    (after ops V (main_v31 : DevRef τ sig)) (ix2 i j)
      = Cert.Sage.hidT (fun i k => Ideal.div ((after ops V (main_v13 : DevRef τ sig)) (ix2 i k)) ((after ops V (main_v19 : DevRef τ sig)) (ix1 i)))
          (V (main_arg0 : DevRef τ sig)) (V (main_arg2 : DevRef τ sig)) (V (main_arg3 : DevRef τ sig)) (V (main_arg4 : DevRef τ sig)) i j :=
  (congrFun (h_eq V) (ix2 i j)).trans
    (hid_read (after ops V (main_v13 : DevRef τ sig)) (V (main_arg0 : DevRef τ sig)) (after ops V (main_v19 : DevRef τ sig)) (V (main_arg2 : DevRef τ sig)) (V (main_arg3 : DevRef τ sig)) (V (main_arg4 : DevRef τ sig)) i j)

/-- The same as an equation of functions of the two coordinates. -/
theorem h_fun :
    (fun i j => (after ops V (main_v31 : DevRef τ sig)) (ix2 i j))
      = Cert.Sage.hidT (fun i k => Ideal.div ((after ops V (main_v13 : DevRef τ sig)) (ix2 i k)) ((after ops V (main_v19 : DevRef τ sig)) (ix1 i)))
          (V (main_arg0 : DevRef τ sig)) (V (main_arg2 : DevRef τ sig)) (V (main_arg3 : DevRef τ sig)) (V (main_arg4 : DevRef τ sig)) :=
  funext fun i => funext fun j => h_apply V i j

/-- The mean's buffer at `j` is the column mean of the layer's buffer. -/
theorem mu_apply (j : Fin 128) :
    (after ops V (main_v34 : DevRef τ sig)) (ix1 j) = Cert.Sage.mu (fun i j => (after ops V (main_v31 : DevRef τ sig)) (ix2 i j)) j :=
  (congrFun (mu_eq V) (ix1 j)).trans (mu_read (after ops V (main_v31 : DevRef τ sig)) j)

/-- The variance's buffer at `j` is the mean squared deviation of the layer's column. -/
theorem var_apply (j : Fin 128) :
    (after ops V (main_v35 : DevRef τ sig)) (ix1 j) = Cert.Sage.varDev (fun i j => (after ops V (main_v31 : DevRef τ sig)) (ix2 i j)) j :=
  (congrFun (var_eq V) (ix1 j)).trans (var_read (after ops V (main_v31 : DevRef τ sig)) j)

/-- The output buffer at `(i, j)` over the three buffers it reads. -/
theorem out_apply_stage (i : Fin 50000) (j : Fin 128) :
    (after ops V (main_v51 : DevRef τ sig)) (ix2 i j)
      = Cert.Sage.out (V (main_arg0 : DevRef τ sig)) (fun i j => (after ops V (main_v31 : DevRef τ sig)) (ix2 i j))
          (fun j => (after ops V (main_v34 : DevRef τ sig)) (ix1 j)) (Cert.Sage.istd fun j => (after ops V (main_v35 : DevRef τ sig)) (ix1 j))
          (fun j => (V (main_arg5 : DevRef τ sig)) (ix1 j)) (fun j => (V (main_arg6 : DevRef τ sig)) (ix1 j)) i j :=
  (congrFun (out_eq V) (ix2 i j)).trans
    (out_read (V (main_arg0 : DevRef τ sig)) (after ops V (main_v31 : DevRef τ sig)) (after ops V (main_v34 : DevRef τ sig)) (after ops V (main_v35 : DevRef τ sig)) (V (main_arg5 : DevRef τ sig)) (V (main_arg6 : DevRef τ sig)) i j)

/-- The reference's output at `(i, j)` is the layer's result over the neighbour mean it forms. -/
theorem out_apply (i : Fin 50000) (j : Fin 128) :
    (after ops V (main_v51 : DevRef τ sig)) (ix2 i j)
      = Cert.Sage.result (fun i k => Ideal.div ((after ops V (main_v13 : DevRef τ sig)) (ix2 i k)) ((after ops V (main_v19 : DevRef τ sig)) (ix1 i)))
          (V (main_arg0 : DevRef τ sig)) (V (main_arg2 : DevRef τ sig)) (V (main_arg3 : DevRef τ sig)) (V (main_arg4 : DevRef τ sig)) (V (main_arg5 : DevRef τ sig)) (V (main_arg6 : DevRef τ sig)) i j := by
  refine (out_apply_stage V i j).trans ?_
  rw [show (fun j => (after ops V (main_v34 : DevRef τ sig)) (ix1 j)) = Cert.Sage.mu (fun i j => (after ops V (main_v31 : DevRef τ sig)) (ix2 i j)) from funext (mu_apply V),
    show (fun j => (after ops V (main_v35 : DevRef τ sig)) (ix1 j)) = Cert.Sage.varDev (fun i j => (after ops V (main_v31 : DevRef τ sig)) (ix2 i j)) from funext (var_apply V),
    h_fun V]
  rfl

/-! ## The two prefix stages, as the run gives them -/

theorem agg_prefix :
    (after ops V (main_v13 : DevRef τ sig))
      = Host.scatterAdd (F := Ideal) scatter_S50000x128_S800000x1_S800000x128_1_0_0_1
          (broadcastInDim S50000x128 ![] bcast_S_S50000x128 (constant (F := Ideal) S_ .f32 0x00000000#32))
          (dstIdx (V (main_arg1 : DevRef τ sig)))
          (Host.gather gather_S50000x128_S800000x1_S800000x128_1_0_n_n_0_1_1128 (V (main_arg0 : DevRef τ sig)) (srcIdx (V (main_arg1 : DevRef τ sig)))) := agg_eq' V

theorem cnt_prefix :
    (after ops V (main_v19 : DevRef τ sig))
      = maximumf
          (Host.scatterAdd (F := Ideal) scatter_S50000_S800000x1_S800000_n_0_0_1
            (broadcastInDim S50000 ![] bcast_S_S50000 (constant (F := Ideal) S_ .f32 0x00000000#32))
            (dstIdx (V (main_arg1 : DevRef τ sig)))
            (broadcastInDim S800000 ![] bcast_S_S800000 (constant (F := Ideal) S_ .f32 0x3F800000#32)))
          (broadcastInDim S50000 ![] bcast_S_S50000 (constant (F := Ideal) S_ .f32 0x3F800000#32)) := cnt_eq' V

end Run

end Cert.ReferenceIdeal.RefValue

end
-- ==== Proof.RefPrefix.lean ====
/-
  The reference's first twenty operations compute the shared part: after its run, the buffer of the aggregated
  neighbour sums holds the sums of the source rows over incoming edges of the launch feature array and edge list,
  and the buffer of the clamped counts holds the per-node edge counts clamped below at one. The two programs
  name their shapes and the dimension numbers of the gather and the two scatters separately; the names stand
  for the same literals, so the terms agree by unfolding.
-/
import proofs.«134507_j47201690583087_2_alg».proof.Proof.RefRun
import proofs.«134507_j47201690583087_2_alg».proof.Proof.Prefix

noncomputable section

namespace Cert.ReferenceIdeal.RefPrefix

open Cert.ReferenceIdeal Cert.ReferenceIdeal.Gen Idealize.ShloMosaic Idealize.ShloMosaic.TcCoe Idealize.SL.Sem Idealize.ShloMosaic.StableHlo Cert.ReferenceIdeal.HandRun

/-- The dimension numbers of the gather and of the two scatters are the same records in both programs. -/
theorem gatherDims_eq :
    Cert.ReferenceIdeal.gather_S50000x128_S800000x1_S800000x128_1_0_n_n_0_1_1128
      = Cert.KernelIdeal.gather_S50000x128_S800000x1_S800000x128_1_0_n_n_0_1_1128 := rfl
theorem scatterDims2_eq :
    Cert.ReferenceIdeal.scatter_S50000x128_S800000x1_S800000x128_1_0_0_1
      = Cert.KernelIdeal.scatter_S50000x128_S800000x1_S800000x128_1_0_0_1 := rfl
theorem scatterDims1_eq :
    Cert.ReferenceIdeal.scatter_S50000_S800000x1_S800000_n_0_0_1
      = Cert.KernelIdeal.scatter_S50000_S800000x1_S800000_n_0_0_1 := rfl

attribute [local irreducible] Host.gather Host.scatterAdd Host.reduceAdd in
set_option maxRecDepth 8192 in
set_option maxHeartbeats 2000000 in
/-- The aggregated neighbour sums, as the reference leaves them. -/
theorem ref_agg (V : Valuation τ sig (Elt Ideal)) :
    after (ops (F := Ideal)) V (main_v13 : DevRef τ sig)
      = Cert.Sage.agg (V (main_arg0 : DevRef τ sig)) (V (main_arg1 : DevRef τ sig)) := by
  unfold Cert.Sage.agg Cert.Sage.dstIdx Cert.Sage.srcIdx Cert.Sage.edgeRow0 Cert.Sage.edgeRow1
  after_results_simp <;> rfl

attribute [local irreducible] Host.gather Host.scatterAdd Host.reduceAdd in
set_option maxRecDepth 8192 in
set_option maxHeartbeats 2000000 in
/-- The clamped neighbour counts, as the reference leaves them. -/
theorem ref_cnt1 (V : Valuation τ sig (Elt Ideal)) :
    after (ops (F := Ideal)) V (main_v19 : DevRef τ sig)
      = Cert.Sage.cnt1 (V (main_arg1 : DevRef τ sig)) := by
  unfold Cert.Sage.cnt1 Cert.Sage.dstIdx Cert.Sage.edgeRow1
  after_results_simp <;> rfl

end Cert.ReferenceIdeal.RefPrefix

end
-- ==== Proof.RefFrame.lean ====
/-
  The reference's run, stated over the buffers the certificate names: every weakly fair execution terminates,
  the result buffer holds what the 85 operations leave there from the launch contents, and each of the seven
  argument buffers ends with the contents it was launched with (no operation writes an argument).
-/
import proofs.«134507_j47201690583087_2_alg».proof.Defs
import proofs.«134507_j47201690583087_2_alg».proof.Proof.Gen.Pre_finite_inputs
import proofs.«134507_j47201690583087_2_alg».proof.Proof.RefRun
import proofs.«134507_j47201690583087_2_alg».proof.Proof.RefRead

noncomputable section

namespace Cert.ReferenceIdeal.RefFrame

open Cert.ReferenceIdeal Cert.ReferenceIdeal.Gen Idealize.ShloMosaic Idealize.ShloMosaic.TcCoe Idealize.SL.Sem Idealize.ShloMosaic.StableHlo

/-! The launch contents of a device at an argument buffer are the memory at that buffer's location. -/
theorem launch_arg0 (m : (ℓ : Loc nD τ sig) → Buf (Elt Ideal) ℓ) (c : Dev nD) :
    launchContents m c (main_arg0 : DevRef τ sig) = m ((c.tc : Thread nD τ).loc main_arg0) := rfl
theorem launch_arg1 (m : (ℓ : Loc nD τ sig) → Buf (Elt Ideal) ℓ) (c : Dev nD) :
    launchContents m c (main_arg1 : DevRef τ sig) = m ((c.tc : Thread nD τ).loc main_arg1) := rfl
theorem launch_arg2 (m : (ℓ : Loc nD τ sig) → Buf (Elt Ideal) ℓ) (c : Dev nD) :
    launchContents m c (main_arg2 : DevRef τ sig) = m ((c.tc : Thread nD τ).loc main_arg2) := rfl
theorem launch_arg3 (m : (ℓ : Loc nD τ sig) → Buf (Elt Ideal) ℓ) (c : Dev nD) :
    launchContents m c (main_arg3 : DevRef τ sig) = m ((c.tc : Thread nD τ).loc main_arg3) := rfl
theorem launch_arg4 (m : (ℓ : Loc nD τ sig) → Buf (Elt Ideal) ℓ) (c : Dev nD) :
    launchContents m c (main_arg4 : DevRef τ sig) = m ((c.tc : Thread nD τ).loc main_arg4) := rfl
theorem launch_arg5 (m : (ℓ : Loc nD τ sig) → Buf (Elt Ideal) ℓ) (c : Dev nD) :
    launchContents m c (main_arg5 : DevRef τ sig) = m ((c.tc : Thread nD τ).loc main_arg5) := rfl
theorem launch_arg6 (m : (ℓ : Loc nD τ sig) → Buf (Elt Ideal) ℓ) (c : Dev nD) :
    launchContents m c (main_arg6 : DevRef τ sig) = m ((c.tc : Thread nD τ).loc main_arg6) := rfl

/-- The run with the result buffer at the operations' fold and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51) = after (HandRun.ops (F := Ideal)) (launchContents m c) (main_v51 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c =>
    ⟨h c main_v51,
     (h c main_arg0).trans (HandRun.arg0_eq (launchContents m c)),
     (h c main_arg1).trans (HandRun.arg1_eq (launchContents m c)),
     (h c main_arg2).trans (HandRun.arg2_eq (launchContents m c)),
     (h c main_arg3).trans (HandRun.arg3_eq (launchContents m c)),
     (h c main_arg4).trans (HandRun.arg4_eq (launchContents m c)),
     (h c main_arg5).trans (HandRun.arg5_eq (launchContents m c)),
     (h c main_arg6).trans (HandRun.arg6_eq (launchContents m c))⟩)
    (HandRun.run_main m ρ)

/-- The frame claim of the reference: it runs and its argument arrays end unchanged. -/
theorem frame : Cert.frame_ReferenceIdeal := fun m ρ _ =>
  (θ_run (defs (F := Ideal)) _ _).mono (fun r h c => (h c).2) (run_value m ρ)

end Cert.ReferenceIdeal.RefFrame

end
-- ==== Proof.PreReal.lean ====
/-
  From the precondition to real inputs. The precondition evaluates, on every device, the conjunction over the
  six float arguments of "every entry has absolute value below plus infinity" and states that the result is
  true. An extended real whose absolute value max x (-x) is below plus infinity is neither infinity, so it is
  a real number; a conjunction that is true has every conjunct true; and an "all" over an array (a reduction
  by "and" over every axis) that is true has a true at every index.
-/
import proofs.«134507_j47201690583087_2_alg».proof.Defs
import proofs.«134507_j47201690583087_2_alg».proof.Proof.Gen.Pre_finite_inputs
import proofs.«134507_j47201690583087_2_alg».proof.Proof.Reals
import Idealize.ShloMosaic.Lib.ReduceAll
import Idealize.ShloMosaic.Lib.IdealHost

noncomputable section

namespace Cert.Sage

open Idealize.ShloMosaic Idealize.SL.Sem

/-- A rank-0 array has one index. -/
instance subsingleton_scalarIdx : Subsingleton Cert.Pre_finite_inputs.S_.Idx :=
  ⟨fun a b => funext fun d => d.elim0⟩

/-- The f32 pattern with all exponent bits set and no fraction bit is plus infinity. -/
theorem ofBits_inf_f32 : Ideal.ofBits .f32 0x7F800000#32 = (⊤ : EReal) := by
  simp [Ideal.ofBits, Ideal.ieee]

/-- An extended real whose absolute value compares below plus infinity is a real number. -/
theorem isReal_of_abs_lt_inf (x : EReal)
    (h : Ideal.cmp .olt (max x (-x)) (Ideal.ofBits .f32 0x7F800000#32) = 1#1) : IsReal x := by
  rw [ofBits_inf_f32] at h
  induction x using EReal.rec with
  | bot => simp [Ideal.cmp] at h
  | coe r => exact ⟨r, rfl⟩
  | top => simp [Ideal.cmp] at h

/-- "All entries of X have absolute value below plus infinity", when true, makes every entry of X real. -/
theorem all_real {s : Shape} {axes : List (Fin s.rank)} (X : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf X)
            (broadcastInDim s ![] hb (constant (F := Ideal) Cert.Pre_finite_inputs.S_ .f32 0x7F800000#32)))
          init hr hu ValueIdx.ix0 = 1#1) :
    ∀ y, IsReal (X y) := by
  intro y
  have hy := Host.reduce_andi_all _ init hr hu ValueIdx.ix0 e y
  exact isReal_of_abs_lt_inf (X y) hy

set_option maxHeartbeats 400000 in
/-- Under the precondition every float argument array holds real numbers only. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ y, IsReal (m ((c.tc : Thread Cert.KernelIdeal.nD Cert.KernelIdeal.τ).loc Cert.KernelIdeal.main_arg0) y))
    ∧ (∀ y, IsReal (m ((c.tc : Thread Cert.KernelIdeal.nD Cert.KernelIdeal.τ).loc Cert.KernelIdeal.main_arg2) y))
    ∧ (∀ y, IsReal (m ((c.tc : Thread Cert.KernelIdeal.nD Cert.KernelIdeal.τ).loc Cert.KernelIdeal.main_arg3) y))
    ∧ (∀ y, IsReal (m ((c.tc : Thread Cert.KernelIdeal.nD Cert.KernelIdeal.τ).loc Cert.KernelIdeal.main_arg4) y))
    ∧ (∀ y, IsReal (m ((c.tc : Thread Cert.KernelIdeal.nD Cert.KernelIdeal.τ).loc Cert.KernelIdeal.main_arg5) y))
    ∧ (∀ y, IsReal (m ((c.tc : Thread Cert.KernelIdeal.nD Cert.KernelIdeal.τ).loc Cert.KernelIdeal.main_arg6) y)) := by
  have h0 := congrFun (h c) ValueIdx.ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨all_real _ _ _ _ _ e0, all_real _ _ _ _ _ e2, all_real _ _ _ _ _ e3, all_real _ _ _ _ _ e4,
    all_real _ _ _ _ _ e5, all_real _ _ _ _ _ e6⟩

end Cert.Sage

end
-- ==== Proof.lean ====
/-
  The certificate: a graph layer with mean aggregation, batch normalisation and a residual, computed by two
  tiled kernels around host glue, against its one-pass reference.

  At the ideal instance both programs compute `Cert.Sage.result` of the inputs (Proof/Canon.lean): the kernel
  by Proof/KerValue.lean, the reference by Proof/RefValue.lean. They spell the neighbour mean differently — a
  product with the reciprocal of the clamped count against a quotient by it — and these agree because the
  clamped count is a real number not below one (Proof/Means.lean). The frames are the generated ones for the
  two kernel programs and the reference's run for the reference; the idealization rewrote nothing.
-/
import proofs.«134507_j47201690583087_2_alg».proof.Defs
import proofs.«134507_j47201690583087_2_alg».proof.Proof.Gen.Kernel
import proofs.«134507_j47201690583087_2_alg».proof.Proof.Gen.Kernel.Frame
import proofs.«134507_j47201690583087_2_alg».proof.Proof.Gen.KernelIdeal
import proofs.«134507_j47201690583087_2_alg».proof.Proof.Gen.KernelIdeal.Frame
import proofs.«134507_j47201690583087_2_alg».proof.Proof.Gen.ReferenceIdeal
import proofs.«134507_j47201690583087_2_alg».proof.Proof.Gen.Pre_finite_inputs
import proofs.«134507_j47201690583087_2_alg».proof.Proof.KerValue
import proofs.«134507_j47201690583087_2_alg».proof.Proof.RefValue
import proofs.«134507_j47201690583087_2_alg».proof.Proof.RefPrefix
import proofs.«134507_j47201690583087_2_alg».proof.Proof.RefFrame
import proofs.«134507_j47201690583087_2_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Sage

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := Cert.ReferenceIdeal.RefFrame.frame

theorem preserves : Cert.preserves_Kernel_KernelIdeal := trivial

/-- From arguments that agree, the reference's result array is the kernel's, index by index: both are
    `result` of the inputs, the one over the quotient by the clamped counts, the other over the product with
    their reciprocals. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (i : Fin 50000) (j : Fin 128) :
    StableHlo.after (Cert.ReferenceIdeal.HandRun.ops (F := Ideal)) (StableHlo.launchContents m' c) (Cert.ReferenceIdeal.main_v51 : DevRef Cert.ReferenceIdeal.τ Cert.ReferenceIdeal.sig) (ix2 i j)
      = Cert.KernelIdeal.Gen.W4 (F := Ideal) m ρ c (Proc.devRef .tc Cert.KernelIdeal.main_v44) (ix2 i j) := by
  obtain ⟨r0, r2, r3, r4, r5, r6⟩ := Cert.Sage.pre_real m hpre c
  have hreal := fun i j => isReal_hidT (meanK_real _ (m ((c.tc : Thread Cert.KernelIdeal.nD Cert.KernelIdeal.τ).loc Cert.KernelIdeal.main_arg1)) r0) r0 r2 r3 r4 i j
  rw [Cert.KernelIdeal.KerValue.ker_value m ρ c hreal i j, Cert.ReferenceIdeal.RefValue.out_apply,
    Cert.ReferenceIdeal.RefPrefix.ref_agg, Cert.ReferenceIdeal.RefPrefix.ref_cnt1,
    Cert.ReferenceIdeal.RefFrame.launch_arg0, Cert.ReferenceIdeal.RefFrame.launch_arg1, Cert.ReferenceIdeal.RefFrame.launch_arg2,
    Cert.ReferenceIdeal.RefFrame.launch_arg3, Cert.ReferenceIdeal.RefFrame.launch_arg4, Cert.ReferenceIdeal.RefFrame.launch_arg5,
    Cert.ReferenceIdeal.RefFrame.launch_arg6, h0, h1, h2, h3, h4, h5, h6, meanK_eq_meanR]
  rfl

theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v44),
    Cert.KernelIdeal.HandRun.run_value m ρ, ?_⟩
  refine (θ_run Cert.ReferenceIdeal.defs _ _).mono (fun r h c => ⟨(h c).1.trans ?_, (h c).2⟩)
    (Cert.ReferenceIdeal.RefFrame.run_value m' ρ')
  funext y
  obtain ⟨i, j, rfl⟩ : ∃ (i : Fin 50000) (j : Fin 128), y = ix2 i j := ⟨y 0, y 1, eq_ix2 y⟩
  obtain ⟨h0, h1, h2, h3, h4, h5, h6⟩ := hagree c
  exact results_agree m ρ m' hpre c h0 h1 h2 h3 h4 h5 h6 i j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
